-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S65536x256 : Shape := ⟨2, ![65536, 256]⟩
abbrev S65536x512 : Shape := ⟨2, ![65536, 512]⟩
abbrev S512x768 : Shape := ⟨2, ![512, 768]⟩
abbrev S512 : Shape := ⟨1, ![512]⟩
abbrev S_ : Shape := ⟨0, ![]⟩

class Facts : Prop where
  bcast_S_S65536x256 : S_.BroadcastsInDim S65536x256 (![] : Fin 0 → Fin S65536x256.rank)
  reducesTo_S65536x256_S_d0_1 : S65536x256.ReducesTo [0, 1] S_
  h_S_ : 0 < S_.numel
  bcast_S_S65536x512 : S_.BroadcastsInDim S65536x512 (![] : Fin 0 → Fin S65536x512.rank)
  reducesTo_S65536x512_S_d0_1 : S65536x512.ReducesTo [0, 1] S_
  bcast_S_S512x768 : S_.BroadcastsInDim S512x768 (![] : Fin 0 → Fin S512x768.rank)
  reducesTo_S512x768_S_d0_1 : S512x768.ReducesTo [0, 1] S_
  bcast_S_S512 : S_.BroadcastsInDim S512 (![] : Fin 0 → Fin S512.rank)
  reducesTo_S512_S_d0 : S512.ReducesTo [0] S_

variable [Facts]

def fn_part1 {F : FTy → Type} [FloatOps F] (main_arg4 : FVec F S512x768 .f32) (main_arg5 : FVec F S512 .f32) (main_v13 : IVec S_ 1) (main_v16 : IVec S512 1) : IVec S_ 1 :=
  let main_c_5 : IVec S_ 1 := constantI S_ 1 1#1
  let main_v17 : IVec S_ 1 := (fun x v => Host.reduce IntOp.andi x v reducesTo_S512_S_d0 h_S_) main_v16 main_c_5
  let main_v18 : IVec S_ 1 := andi main_v13 main_v17
  let main_v19 : FVec F S512x768 .f32 := Host.absf main_arg4
  let main_cst_6 : FVec F S_ .f32 := constant S_ .f32 0x7F800000#32
  let main_v20 : FVec F S512x768 .f32 := broadcastInDim S512x768 ![] bcast_S_S512x768 main_cst_6
  let main_v21 : IVec S512x768 1 := cmpf .olt main_v19 main_v20
  let main_c_7 : IVec S_ 1 := constantI S_ 1 1#1
  let main_v22 : IVec S_ 1 := (fun x v => Host.reduce IntOp.andi x v reducesTo_S512x768_S_d0_1 h_S_) main_v21 main_c_7
  let main_v23 : IVec S_ 1 := andi main_v18 main_v22
  let main_v24 : FVec F S512 .f32 := Host.absf main_arg5
  let main_cst_8 : FVec F S_ .f32 := constant S_ .f32 0x7F800000#32
  let main_v25 : FVec F S512 .f32 := broadcastInDim S512 ![] bcast_S_S512 main_cst_8
  let main_v26 : IVec S512 1 := cmpf .olt main_v24 main_v25
  let main_c_9 : IVec S_ 1 := constantI S_ 1 1#1
  let main_v27 : IVec S_ 1 := (fun x v => Host.reduce IntOp.andi x v reducesTo_S512_S_d0 h_S_) main_v26 main_c_9
  let main_v28 : IVec S_ 1 := andi main_v23 main_v27
  main_v28

def fn {F : FTy → Type} [FloatOps F] (main_arg0 : FVec F S65536x256 .f32) (main_arg1 : FVec F S65536x512 .f32) (main_arg2 : FVec F S512x768 .f32) (main_arg3 : FVec F S512 .f32) (main_arg4 : FVec F S512x768 .f32) (main_arg5 : FVec F S512 .f32) : IVec S_ 1 :=
  let main_v0 : FVec F S65536x256 .f32 := Host.absf main_arg0
  let main_cst : FVec F S_ .f32 := constant S_ .f32 0x7F800000#32
  let main_v1 : FVec F S65536x256 .f32 := broadcastInDim S65536x256 ![] bcast_S_S65536x256 main_cst
  let main_v2 : IVec S65536x256 1 := cmpf .olt main_v0 main_v1
  let main_c : IVec S_ 1 := constantI S_ 1 1#1
  let main_v3 : IVec S_ 1 := (fun x v => Host.reduce IntOp.andi x v reducesTo_S65536x256_S_d0_1 h_S_) main_v2 main_c
  let main_v4 : FVec F S65536x512 .f32 := Host.absf main_arg1
  let main_cst_0 : FVec F S_ .f32 := constant S_ .f32 0x7F800000#32
  let main_v5 : FVec F S65536x512 .f32 := broadcastInDim S65536x512 ![] bcast_S_S65536x512 main_cst_0
  let main_v6 : IVec S65536x512 1 := cmpf .olt main_v4 main_v5
  let main_c_1 : IVec S_ 1 := constantI S_ 1 1#1
  let main_v7 : IVec S_ 1 := (fun x v => Host.reduce IntOp.andi x v reducesTo_S65536x512_S_d0_1 h_S_) main_v6 main_c_1
  let main_v8 : IVec S_ 1 := andi main_v3 main_v7
  let main_v9 : FVec F S512x768 .f32 := Host.absf main_arg2
  let main_cst_2 : FVec F S_ .f32 := constant S_ .f32 0x7F800000#32
  let main_v10 : FVec F S512x768 .f32 := broadcastInDim S512x768 ![] bcast_S_S512x768 main_cst_2
  let main_v11 : IVec S512x768 1 := cmpf .olt main_v9 main_v10
  let main_c_3 : IVec S_ 1 := constantI S_ 1 1#1
  let main_v12 : IVec S_ 1 := (fun x v => Host.reduce IntOp.andi x v reducesTo_S512x768_S_d0_1 h_S_) main_v11 main_c_3
  let main_v13 : IVec S_ 1 := andi main_v8 main_v12
  let main_v14 : FVec F S512 .f32 := Host.absf main_arg3
  let main_cst_4 : FVec F S_ .f32 := constant S_ .f32 0x7F800000#32
  let main_v15 : FVec F S512 .f32 := broadcastInDim S512 ![] bcast_S_S512 main_cst_4
  let main_v16 : IVec S512 1 := cmpf .olt main_v14 main_v15
  fn_part1 (F := F) main_arg4 main_arg5 main_v13 main_v16
-- ==== Kernel.lean ====
abbrev S65536x256 : Shape := ⟨2, ![65536, 256]⟩
abbrev S65536x512 : Shape := ⟨2, ![65536, 512]⟩
abbrev S512x768 : Shape := ⟨2, ![512, 768]⟩
abbrev S512 : Shape := ⟨1, ![512]⟩
abbrev S768x512 : Shape := ⟨2, ![768, 512]⟩
abbrev S512x512 : Shape := ⟨2, ![512, 512]⟩
abbrev S256x512 : Shape := ⟨2, ![256, 512]⟩
abbrev S1x512 : Shape := ⟨2, ![1, 512]⟩
abbrev S1024x256 : Shape := ⟨2, ![1024, 256]⟩
abbrev S1024x512 : Shape := ⟨2, ![1024, 512]⟩

abbrev nBuf : Space → Nat
  | .hbm => 17
  | .vmem => 12
  | .smem => 0
  | _ => 0

abbrev bufTy : (tb : Table) → Fin (tcTables nBuf tb) → BufTy
  | .hbm, ⟨0, _⟩ => ⟨S65536x256, .f32⟩
  | .hbm, ⟨1, _⟩ => ⟨S65536x512, .f32⟩
  | .hbm, ⟨2, _⟩ => ⟨S512x768, .f32⟩
  | .hbm, ⟨3, _⟩ => ⟨S512, .f32⟩
  | .hbm, ⟨4, _⟩ => ⟨S512x768, .f32⟩
  | .hbm, ⟨5, _⟩ => ⟨S512, .f32⟩
  | .hbm, ⟨6, _⟩ => ⟨S768x512, .f32⟩
  | .hbm, ⟨7, _⟩ => ⟨S768x512, .bf16⟩
  | .hbm, ⟨8, _⟩ => ⟨S768x512, .f32⟩
  | .hbm, ⟨9, _⟩ => ⟨S768x512, .bf16⟩
  | .hbm, ⟨10, _⟩ => ⟨S512x512, .bf16⟩
  | .hbm, ⟨11, _⟩ => ⟨S256x512, .bf16⟩
  | .hbm, ⟨12, _⟩ => ⟨S512x512, .bf16⟩
  | .hbm, ⟨13, _⟩ => ⟨S256x512, .bf16⟩
  | .hbm, ⟨14, _⟩ => ⟨S1x512, .f32⟩
  | .hbm, ⟨15, _⟩ => ⟨S1x512, .f32⟩
  | .hbm, ⟨16, _⟩ => ⟨S65536x512, .f32⟩
  | .local _ .vmem, ⟨0, _⟩ => ⟨S1024x256, .f32⟩
  | .local _ .vmem, ⟨1, _⟩ => ⟨S1024x256, .f32⟩
  | .local _ .vmem, ⟨2, _⟩ => ⟨S1024x512, .f32⟩
  | .local _ .vmem, ⟨3, _⟩ => ⟨S1024x512, .f32⟩
  | .local _ .vmem, ⟨4, _⟩ => ⟨S512x512, .bf16⟩
  | .local _ .vmem, ⟨5, _⟩ => ⟨S256x512, .bf16⟩
  | .local _ .vmem, ⟨6, _⟩ => ⟨S1x512, .f32⟩
  | .local _ .vmem, ⟨7, _⟩ => ⟨S512x512, .bf16⟩
  | .local _ .vmem, ⟨8, _⟩ => ⟨S256x512, .bf16⟩
  | .local _ .vmem, ⟨9, _⟩ => ⟨S1x512, .f32⟩
  | .local _ .vmem, ⟨10, _⟩ => ⟨S1024x512, .f32⟩
  | .local _ .vmem, ⟨11, _⟩ => ⟨S1024x512, .f32⟩
  | _, _ => ⟨S65536x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_call0_v0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_v7 : Ref sig .tc := ⟨.hbm, 13, rfl⟩
abbrev main_call0_v8 : Ref sig .tc := ⟨.hbm, 14, rfl⟩
abbrev main_call0_v9 : Ref sig .tc := ⟨.hbm, 15, rfl⟩
abbrev main_v0 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S256x512 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x512 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S1024x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  transposes_S512x768_S768x512_1_0 : S512x768.Transposes [1, 0] S768x512
  bitsLt_bf16_f32 : FTy.bits .bf16 < FTy.bits .f32
  slices_S768x512_S512x512_0_0 : S768x512.Slices ![0, 0] S512x512
  slices_S768x512_S256x512_512_0 : S768x512.Slices ![512, 0] S256x512
  shapeCasts_S512_S1x512 : S512.ShapeCasts S1x512
  inb_S1024x256_S1024x256_0_0 : ∀ a, (![0, 0] : Fin 2 → Nat) a + S1024x256.size a ≤ S1024x256.size a
  h_S1024x256 : 0 < S1024x256.numel
  inb_S1024x512_S1024x512_0_0 : ∀ a, (![0, 0] : Fin 2 → Nat) a + S1024x512.size a ≤ S1024x512.size a
  h_S1024x512 : 0 < S1024x512.numel
  inb_S512x512_S512x512_0_0 : ∀ a, (![0, 0] : Fin 2 → Nat) a + S512x512.size a ≤ S512x512.size a
  h_S512x512 : 0 < S512x512.numel
  shapeCasts_S512x512_S512x512 : S512x512.ShapeCasts S512x512
  inb_S256x512_S256x512_0_0 : ∀ a, (![0, 0] : Fin 2 → Nat) a + S256x512.size a ≤ S256x512.size a
  h_S256x512 : 0 < S256x512.numel
  shapeCasts_S256x512_S256x512 : S256x512.ShapeCasts S256x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S1024x512 : S1x512.Broadcasts S1024x512
  dot_S1024x512_S512x512_S1024x512_1_0_0_1_n_n_wf : DotDims.WF S1024x512 S512x512 S1024x512 [1] [0] [0] [1] [] []
  dot_S1024x256_S256x512_S1024x512_1_0_0_1_n_n_wf : DotDims.WF S1024x256 S256x512 S1024x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S65536x256.size a
  hwx0_0 : ∀ i : grid0.Coords, EltTy.bits .f32 = 32 ∨ (Rect.block (s := S65536x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x512.size a ≤ S65536x512.size a
  hwx0_1 : ∀ i : grid0.Coords, EltTy.bits .f32 = 32 ∨ (Rect.block (s := S65536x512) S1024x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .bf16 = 32 ∨ (Rect.block (s := S512x512) S512x512.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x512.size a ≤ S256x512.size a
  hwx0_3 : ∀ i : grid0.Coords, EltTy.bits .bf16 = 32 ∨ (Rect.block (s := S256x512) S256x512.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x512.size a ≤ S1x512.size a
  hwx0_4 : ∀ i : grid0.Coords, EltTy.bits .f32 = 32 ∨ (Rect.block (s := S1x512) S1x512.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S512x512.size a ≤ S512x512.size a
  hwx0_5 : ∀ i : grid0.Coords, EltTy.bits .bf16 = 32 ∨ (Rect.block (s := S512x512) S512x512.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x512.size a ≤ S256x512.size a
  hwx0_6 : ∀ i : grid0.Coords, EltTy.bits .bf16 = 32 ∨ (Rect.block (s := S256x512) S256x512.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x512.size a ≤ S1x512.size a
  hwx0_7 : ∀ i : grid0.Coords, EltTy.bits .f32 = 32 ∨ (Rect.block (s := S1x512) S1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x512.size a ≤ S65536x512.size a
  hwx0_8 : ∀ i : grid0.Coords, EltTy.bits .f32 = 32 ∨ (Rect.block (s := S65536x512) S1024x512.size (cc0_transform_8 i) (hinb0_8 i)).WholeWords (EltTy.packing .f32)

variable [Facts₀]

def dot_S1024x512_S512x512_S1024x512_1_0_0_1_n_n : DotDims S1024x512 S512x512 S1024x512 where
  lhsContracting := [1]
  rhsContracting := [0]
  lhsNonContracting := [0]
  rhsNonContracting := [1]
  lhsBatch := []
  rhsBatch := []
  wf := dot_S1024x512_S512x512_S1024x512_1_0_0_1_n_n_wf
def dot_S1024x256_S256x512_S1024x512_1_0_0_1_n_n : DotDims S1024x256 S256x512 S1024x512 where
  lhsContracting := [1]
  rhsContracting := [0]
  lhsNonContracting := [0]
  rhsNonContracting := [1]
  lhsBatch := []
  rhsBatch := []
  wf := dot_S1024x256_S256x512_S1024x512_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v4) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v5) S256x512.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_call0_v8) S1x512.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_call0_v6) S512x512.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_call0_v7) S256x512.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_call0_v9) S1x512.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v0) S1024x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S65536x256 : Shape := ⟨2, ![65536, 256]⟩
abbrev S65536x512 : Shape := ⟨2, ![65536, 512]⟩
abbrev S512x768 : Shape := ⟨2, ![512, 768]⟩
abbrev S512 : Shape := ⟨1, ![512]⟩
abbrev S65536x768 : Shape := ⟨2, ![65536, 768]⟩
abbrev S1x512 : Shape := ⟨2, ![1, 512]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S65536x512, .f32⟩
  | .hbm, ⟨2, _⟩ => ⟨S512x768, .f32⟩
  | .hbm, ⟨3, _⟩ => ⟨S512, .f32⟩
  | .hbm, ⟨4, _⟩ => ⟨S512x768, .f32⟩
  | .hbm, ⟨5, _⟩ => ⟨S512, .f32⟩
  | .hbm, ⟨6, _⟩ => ⟨S65536x768, .f32⟩
  | .hbm, ⟨7, _⟩ => ⟨S65536x512, .f32⟩
  | .hbm, ⟨8, _⟩ => ⟨S1x512, .f32⟩
  | .hbm, ⟨9, _⟩ => ⟨S65536x512, .f32⟩
  | .hbm, ⟨10, _⟩ => ⟨S65536x512, .f32⟩
  | .hbm, ⟨11, _⟩ => ⟨S_, .f32⟩
  | .hbm, ⟨12, _⟩ => ⟨S65536x512, .f32⟩
  | .hbm, ⟨13, _⟩ => ⟨S65536x512, .f32⟩
  | .hbm, ⟨14, _⟩ => ⟨S_, .f32⟩
  | .hbm, ⟨15, _⟩ => ⟨S65536x512, .f32⟩
  | .hbm, ⟨16, _⟩ => ⟨S65536x512, .f32⟩
  | .hbm, ⟨17, _⟩ => ⟨S65536x512, .f32⟩
  | .hbm, ⟨18, _⟩ => ⟨S65536x768, .f32⟩
  | .hbm, ⟨19, _⟩ => ⟨S65536x512, .f32⟩
  | .hbm, ⟨20, _⟩ => ⟨S1x512, .f32⟩
  | .hbm, ⟨21, _⟩ => ⟨S65536x512, .f32⟩
  | .hbm, ⟨22, _⟩ => ⟨S65536x512, .f32⟩
  | .hbm, ⟨23, _⟩ => ⟨S65536x512, .f32⟩
  | .hbm, ⟨24, _⟩ => ⟨S65536x512, .f32⟩
  | .hbm, ⟨25, _⟩ => ⟨S65536x512, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩

abbrev nD : Nat := 1
abbrev τ : Topo := Topo.v7x

variable {F : FTy → Type} [FloatOps F]

class Facts₀ : Prop where
  concatenates_S65536x512_S65536x256_S65536x768_d1 : Shape.Concatenates [S65536x512, S65536x256] S65536x768 1
  bcast_S512_S1x512_1 : S512.BroadcastsInDim S1x512 (![1] : Fin 1 → Fin S1x512.rank)
  bcast_S1x512_S65536x512_0_1 : S1x512.BroadcastsInDim S65536x512 (![0, 1] : Fin 2 → Fin S65536x512.rank)
  bcast_S_S65536x512 : S_.BroadcastsInDim S65536x512 (![] : Fin 0 → Fin S65536x512.rank)
  dot_S65536x768_S512x768_S65536x512_1_1_0_0_n_n_wf : DotDims.WF S65536x768 S512x768 S65536x512 [1] [1] [0] [0] [] []

variable [Facts₀]

def dot_S65536x768_S512x768_S65536x512_1_1_0_0_n_n : DotDims S65536x768 S512x768 S65536x512 where
  lhsContracting := [1]
  rhsContracting := [1]
  lhsNonContracting := [0]
  rhsNonContracting := [0]
  lhsBatch := []
  rhsBatch := []
  wf := dot_S65536x768_S512x768_S65536x512_1_1_0_0_n_n_wf

class Facts : Prop extends Facts₀ where

variable [Facts]
-- ==== Proof.Spec.lean ====
/-
  The gated recurrent cell both programs compute, written once over plain index types.

  One batch row has a state row `a : Fin 512 → EReal` and an input row `x : Fin 256 → EReal`; a gate has a weight
  matrix whose row `w : Fin 768 → EReal` multiplies the concatenation `[a ; x]`, and a bias `b`. The forget gate is
  `fg = (W_f [a ; x] + b_f + 1) / 2`, the gated state is `fg · a`, the new gate is `ng = W_n [fg · a ; x] + b_n` and
  the new state is `ng − fg · ng + fg · a`.

  Two spellings of each formula are given. The `S` (split) spelling contracts the state part and the input part
  separately, scales by one half with a fused multiply-add, and writes the output as `ng · (1 − fg) + fg · a`.
  The `C` (concatenated) spelling contracts over all 768 columns at once, adds one before halving, and writes the output
  as `(ng − fg · ng) + fg · a`. They agree whenever every entry is a real number (distributivity fails at the
  infinities), which is proved in a module of its own.
-/
import Mathlib
import Idealize.ShloMosaic.PureOps.Ideal
import Idealize.ShloMosaic.Lib.ValueIdx

noncomputable section

open scoped BigOperators
open Idealize.ShloMosaic Idealize.ShloMosaic.ValueIdx

namespace Mgu

/-- The single-precision pattern of one half, read as an extended real. -/
abbrev half : EReal := Ideal.ofBits .f32 0x3F000000#32
/-- The single-precision pattern of one, read as an extended real. -/
abbrev one : EReal := Ideal.ofBits .f32 0x3F800000#32

/-- Column `k` of the state part, as a column of the concatenation. -/
abbrev lo (k : Fin 512) : Fin 768 := ⟨k.val, by omega⟩
/-- Column `k` of the input part, as a column of the concatenation. -/
abbrev hi (k : Fin 256) : Fin 768 := ⟨512 + k.val, by omega⟩

/-- The concatenation `[a ; x]` of a state row and an input row. -/
def cat (a : Fin 512 → EReal) (x : Fin 256 → EReal) (k : Fin 768) : EReal :=
  if h : k.val < 512 then a ⟨k.val, h⟩ else x ⟨k.val - 512, by omega⟩

/-- An affine map of `[a ; x]`, the contraction split into its state part and its input part. -/
def linS (a : Fin 512 → EReal) (x : Fin 256 → EReal) (w : Fin 768 → EReal) (b : EReal) : EReal :=
  (∑ k : Fin 512, a k * w (lo k) + ∑ k : Fin 256, x k * w (hi k)) + b

/-- The same affine map, contracted over all 768 columns of the concatenation. -/
def linC (a : Fin 512 → EReal) (x : Fin 256 → EReal) (w : Fin 768 → EReal) (b : EReal) : EReal :=
  (∑ k : Fin 768, cat a x k * w k) + b

/-- The forget gate, split spelling: `lin · ½ + ½`. -/
def fgS (a : Fin 512 → EReal) (x : Fin 256 → EReal) (wf : Fin 512 → Fin 768 → EReal) (bf : Fin 512 → EReal)
    (h : Fin 512) : EReal :=
  linS a x (wf h) (bf h) * half + half

/-- The forget gate, concatenated spelling: `(lin + 1) · ½`. -/
def fgC (a : Fin 512 → EReal) (x : Fin 256 → EReal) (wf : Fin 512 → Fin 768 → EReal) (bf : Fin 512 → EReal)
    (h : Fin 512) : EReal :=
  (linC a x (wf h) (bf h) + one) * half

/-- The new state of one batch row at hidden unit `h`, split spelling: `ng · (1 − fg) + fg · a`. -/
def outS (a : Fin 512 → EReal) (x : Fin 256 → EReal) (wf : Fin 512 → Fin 768 → EReal) (bf : Fin 512 → EReal)
    (wn : Fin 512 → Fin 768 → EReal) (bn : Fin 512 → EReal) (h : Fin 512) : EReal :=
  linS (fun k => fgS a x wf bf k * a k) x (wn h) (bn h) * (one - fgS a x wf bf h) + fgS a x wf bf h * a h

/-- The new state of one batch row at hidden unit `h`, concatenated spelling: `(ng − fg · ng) + fg · a`. -/
def outC (a : Fin 512 → EReal) (x : Fin 256 → EReal) (wf : Fin 512 → Fin 768 → EReal) (bf : Fin 512 → EReal)
    (wn : Fin 512 → Fin 768 → EReal) (bn : Fin 512 → EReal) (h : Fin 512) : EReal :=
  (linC (fun k => fgC a x wf bf k * a k) x (wn h) (bn h)
      - fgC a x wf bf h * linC (fun k => fgC a x wf bf k * a k) x (wn h) (bn h))
    + fgC a x wf bf h * a h

/-! ## The whole arrays -/

/-- Row `r` of a two-axis array. -/
abbrev row {n0 n1 : Nat} (A : (⟨2, ![n0, n1]⟩ : Shape).Idx → EReal) (r : Fin n0) : Fin n1 → EReal :=
  fun k => A (ix2 r k)
/-- A two-axis array as a function of its two coordinates. -/
abbrev mat {n0 n1 : Nat} (A : (⟨2, ![n0, n1]⟩ : Shape).Idx → EReal) : Fin n0 → Fin n1 → EReal :=
  fun r k => A (ix2 r k)
/-- A one-axis array as a function of its coordinate. -/
abbrev vec {n : Nat} (A : (⟨1, ![n]⟩ : Shape).Idx → EReal) : Fin n → EReal :=
  fun k => A (ix1 k)

/-- The result array [65536, 512] of the argument arrays, split spelling. -/
def GS (X : (⟨2, ![65536, 256]⟩ : Shape).Idx → EReal) (H : (⟨2, ![65536, 512]⟩ : Shape).Idx → EReal)
    (WF : (⟨2, ![512, 768]⟩ : Shape).Idx → EReal) (BF : (⟨1, ![512]⟩ : Shape).Idx → EReal)
    (WN : (⟨2, ![512, 768]⟩ : Shape).Idx → EReal) (BN : (⟨1, ![512]⟩ : Shape).Idx → EReal) :
    (⟨2, ![65536, 512]⟩ : Shape).Idx → EReal :=
  fun i => outS (row H (i 0)) (row X (i 0)) (mat WF) (vec BF) (mat WN) (vec BN) (i 1)

/-- The result array [65536, 512] of the argument arrays, concatenated spelling. -/
def GC (X : (⟨2, ![65536, 256]⟩ : Shape).Idx → EReal) (H : (⟨2, ![65536, 512]⟩ : Shape).Idx → EReal)
    (WF : (⟨2, ![512, 768]⟩ : Shape).Idx → EReal) (BF : (⟨1, ![512]⟩ : Shape).Idx → EReal)
    (WN : (⟨2, ![512, 768]⟩ : Shape).Idx → EReal) (BN : (⟨1, ![512]⟩ : Shape).Idx → EReal) :
    (⟨2, ![65536, 512]⟩ : Shape).Idx → EReal :=
  fun i => outC (row H (i 0)) (row X (i 0)) (mat WF) (vec BF) (mat WN) (vec BN) (i 1)

end Mgu

end
-- ==== Proof.LibRealSums.lean ====
/-
  General algebra of finite sums of real numbers read inside the extended reals.

  At the ideal instance a float is an extended real, and the ring laws that join a program which aggregates
  first and multiplies afterwards to one which multiplies first (distributivity, exchange of two finite sums,
  cancellation in a mean) fail at the two infinities. Every law here is therefore stated for entries that are
  coercions of real numbers: it is proved in the reals and the coercion is pushed through sums, products and
  differences.
-/
import Mathlib
import Idealize.ShloMosaic.PureOps.Ideal
import Idealize.ShloMosaic.PureOps.Ideal.Laws

noncomputable section

open scoped BigOperators
open Idealize.ShloMosaic

namespace LibRealSums

/-! ## 1. The coercion commutes with finite sums -/

/-- The coercion of the reals into the extended reals commutes with a finite sum:
    the coercion of `∑ i ∈ s, f i` is `∑ i ∈ s` of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The same over a whole finite index type. -/
theorem coe_sum_univ {ι : Type*} [Fintype ι] (f : ι → ℝ) :
    ((∑ i, f i : ℝ) : EReal) = ∑ i, (f i : EReal) :=
  coe_sum Finset.univ f

/-! ## 3. Regrouping a sum over `m * n` indices into `m` tiles of `n` -/

/-- A sum over `Fin N` with `N = m * n` is the sum over the `m` tiles of the sums over the `n` positions of a
    tile, the index of position `r` of tile `t` being `t * n + r`. -/
theorem sum_tiles {M : Type*} [AddCommMonoid M] {m n N : ℕ} (h : m * n = N) (f : Fin N → M) :
    ∑ t : Fin m, ∑ r : Fin n,
        f ⟨t.val * n + r.val, by
          have := t.isLt; have := r.isLt
          calc t.val * n + r.val < t.val * n + n := by omega
            _ = (t.val + 1) * n := by ring
            _ ≤ m * n := Nat.mul_le_mul_right _ (by omega)
            _ = N := h⟩
      = ∑ i : Fin N, f i := by
  subst h
  rw [← (finProdFinEquiv (m := m) (n := n)).sum_comp f, Fintype.sum_prod_type]
  refine Finset.sum_congr rfl fun t _ => Finset.sum_congr rfl fun r _ => congrArg f (Fin.ext ?_)
  simp only [finProdFinEquiv, Equiv.coe_fn_mk]
  ring

/-- `100000 = 25 * 4000`: a sum over 100000 indices is the sum over 25 tiles of 4000. -/
theorem sum_tiles_25_4000 {M : Type*} [AddCommMonoid M] (f : Fin 100000 → M) :
    ∑ t : Fin 25, ∑ r : Fin 4000, f ⟨t.val * 4000 + r.val, by omega⟩ = ∑ i : Fin 100000, f i :=
  sum_tiles (m := 25) (n := 4000) (N := 100000) (by norm_num) f

/-- `100000 = 50 * 2000`: a sum over 100000 indices is the sum over 50 tiles of 2000. -/
theorem sum_tiles_50_2000 {M : Type*} [AddCommMonoid M] (f : Fin 100000 → M) :
    ∑ t : Fin 50, ∑ r : Fin 2000, f ⟨t.val * 2000 + r.val, by omega⟩ = ∑ i : Fin 100000, f i :=
  sum_tiles (m := 50) (n := 2000) (N := 100000) (by norm_num) f

/-! ## 5. Aggregate, then multiply by the weight = multiply by the weight, then aggregate -/

/-- In the reals: the weighted sum over `k` of an aggregate `∑ e ∈ S, nrm e * g e k + d * y k` is the aggregate
    of the weighted sums: distributivity and the exchange of the two finite sums. -/
theorem real_aggregate_mul {E K : Type*} [Fintype K] (S : Finset E) (nrm : E → ℝ) (g : E → K → ℝ) (d : ℝ)
    (y W : K → ℝ) :
    ∑ k, ((∑ e ∈ S, nrm e * g e k) + d * y k) * W k
      = (∑ e ∈ S, nrm e * ∑ k, g e k * W k) + d * ∑ k, y k * W k := by
  simp only [add_mul, Finset.sum_add_distrib, Finset.sum_mul, Finset.mul_sum, mul_assoc]
  rw [Finset.sum_comm]

/-- In the extended reals, for real entries: a row that is first aggregated over the edges `e ∈ S` landing on it
    (each scaled by `nrm e`), has `d` times its own entry added, and is then contracted with the weight `W`, equals
    the row whose edge features and own entry are contracted with `W` first and aggregated afterwards. The leading
    `0 +` on both sides is the zero the scatter-add starts from. -/
theorem aggregate_mul {E K : Type*} [Fintype K] (S : Finset E) (nrm : E → ℝ) (g : E → K → ℝ) (d : ℝ)
    (y W : K → ℝ) :
    ∑ k, (((0 : EReal) + ∑ e ∈ S, (nrm e : EReal) * (g e k : EReal)) + (d : EReal) * (y k : EReal)) * (W k : EReal)
      = ((0 : EReal) + ∑ e ∈ S, (nrm e : EReal) * ∑ k, (g e k : EReal) * (W k : EReal))
          + (d : EReal) * ∑ k, (y k : EReal) * (W k : EReal) := by
  simp only [zero_add, ← EReal.coe_mul, ← coe_sum, ← EReal.coe_add]
  rw [real_aggregate_mul]

/-- The same with the edges selected by a decidable predicate: the sums over `Finset.univ.filter p`. -/
theorem aggregate_mul_filter {E K : Type*} [Fintype E] [Fintype K] (p : E → Prop) [DecidablePred p]
    (nrm : E → ℝ) (g : E → K → ℝ) (d : ℝ) (y W : K → ℝ) :
    ∑ k, (((0 : EReal) + ∑ e ∈ Finset.univ.filter p, (nrm e : EReal) * (g e k : EReal))
            + (d : EReal) * (y k : EReal)) * (W k : EReal)
      = ((0 : EReal) + ∑ e ∈ Finset.univ.filter p, (nrm e : EReal) * ∑ k, (g e k : EReal) * (W k : EReal))
          + (d : EReal) * ∑ k, (y k : EReal) * (W k : EReal) :=
  aggregate_mul (Finset.univ.filter p) nrm g d y W

/-- The aggregate without the self term: contraction with the weight commutes with the scaled aggregation. -/
theorem aggregate_mul_noself {E K : Type*} [Fintype K] (S : Finset E) (nrm : E → ℝ) (g : E → K → ℝ)
    (W : K → ℝ) :
    ∑ k, ((0 : EReal) + ∑ e ∈ S, (nrm e : EReal) * (g e k : EReal)) * (W k : EReal)
      = (0 : EReal) + ∑ e ∈ S, (nrm e : EReal) * ∑ k, (g e k : EReal) * (W k : EReal) := by
  simp only [zero_add, ← EReal.coe_mul, ← coe_sum]
  congr 1
  simp only [Finset.sum_mul, Finset.mul_sum, mul_assoc]
  rw [Finset.sum_comm]

/-! ## 4. The variance: mean of the squares minus the squared mean = mean of the squared deviations -/

/-- The quotient of a real by a nonzero real, taken in the extended reals, is the coercion of the real quotient. -/
theorem div_coe_coe (x : ℝ) {n : ℝ} (hn : n ≠ 0) :
    Ideal.div (x : EReal) (n : EReal) = ((x / n : ℝ) : EReal) := by
  rw [Ideal.div_coe hn, ← EReal.coe_mul, mul_one_div]

/-- In the reals, over `n ≠ 0` entries with mean `m = (∑ a) / n`:
    `(∑ a²) / n - m² = (∑ (a - m)²) / n`, since `∑ (a - m)² = ∑ a² - 2 m ∑ a + n m²` and `∑ a = n m`. -/
theorem real_variance {ι : Type*} [Fintype ι] (a : ι → ℝ) {n : ℝ} (hcard : (Fintype.card ι : ℝ) = n)
    (hn : n ≠ 0) :
    (∑ i, a i * a i) / n - (∑ i, a i) / n * ((∑ i, a i) / n)
      = (∑ i, (a i - (∑ j, a j) / n) * (a i - (∑ j, a j) / n)) / n := by
  have key : ∀ m : ℝ, ∑ i, (a i - m) * (a i - m) = (∑ i, a i * a i) - 2 * m * (∑ i, a i) + n * (m * m) := by
    intro m
    have h : ∀ i, (a i - m) * (a i - m) = a i * a i - 2 * m * a i + m * m := fun i => by ring
    simp only [h, Finset.sum_add_distrib, Finset.sum_sub_distrib, ← Finset.mul_sum, Finset.sum_const,
      Finset.card_univ, nsmul_eq_mul, hcard]
    ring
  rw [key]
  field_simp
  ring

/-- In the extended reals, for real entries `a i` over an index type of `n ≠ 0` elements, with the mean
    `μ = (∑ a) / n`: the mean of the squares minus the square of the mean is the mean of the squared deviations
    from the mean. (The two-pass and the one-pass formula of a batch variance.) -/
theorem variance {ι : Type*} [Fintype ι] (a : ι → ℝ) {n : ℝ} (hcard : (Fintype.card ι : ℝ) = n) (hn : n ≠ 0) :
    Ideal.div (∑ i, (a i : EReal) * (a i : EReal)) (n : EReal)
        - Ideal.div (∑ i, (a i : EReal)) (n : EReal) * Ideal.div (∑ i, (a i : EReal)) (n : EReal)
      = Ideal.div (∑ i, ((a i : EReal) - Ideal.div (∑ j, (a j : EReal)) (n : EReal))
                        * ((a i : EReal) - Ideal.div (∑ j, (a j : EReal)) (n : EReal))) (n : EReal) := by
  have hμ : Ideal.div (∑ j, (a j : EReal)) (n : EReal) = (((∑ j, a j) / n : ℝ) : EReal) := by
    rw [← coe_sum_univ, div_coe_coe _ hn]
  rw [hμ]
  simp only [← EReal.coe_mul, ← EReal.coe_sub, ← coe_sum_univ, div_coe_coe _ hn]
  rw [real_variance a hcard hn]

/-- The same with the mean named: for `μ` equal to `(∑ a) / n`. -/
theorem variance' {ι : Type*} [Fintype ι] (a : ι → ℝ) {n : ℝ} (hcard : (Fintype.card ι : ℝ) = n) (hn : n ≠ 0)
    (μ : EReal) (hμ : μ = Ideal.div (∑ i, (a i : EReal)) (n : EReal)) :
    Ideal.div (∑ i, (a i : EReal) * (a i : EReal)) (n : EReal) - μ * μ
      = Ideal.div (∑ i, ((a i : EReal) - μ) * ((a i : EReal) - μ)) (n : EReal) := by
  subst hμ
  exact variance a hcard hn

/-- The mean of real entries is real: `(∑ a) / n` in the extended reals is the coercion of the real mean. -/
theorem mean_eq_coe {ι : Type*} [Fintype ι] (a : ι → ℝ) {n : ℝ} (hn : n ≠ 0) :
    Ideal.div (∑ i, (a i : EReal)) (n : EReal) = (((∑ i, a i) / n : ℝ) : EReal) := by
  rw [← coe_sum_univ, div_coe_coe _ hn]

/-- Both forms of the variance of real entries are the coercion of ONE real number `v ≥ 0` (so that adding an
    `ε > 0` gives a real `> 0`): `v` is the real mean of the squared deviations. -/
theorem variance_eq_coe_nonneg {ι : Type*} [Fintype ι] (a : ι → ℝ) {n : ℝ} (hcard : (Fintype.card ι : ℝ) = n)
    (hn : n ≠ 0) :
    ∃ v : ℝ, 0 ≤ v
      ∧ Ideal.div (∑ i, (a i : EReal) * (a i : EReal)) (n : EReal)
          - Ideal.div (∑ i, (a i : EReal)) (n : EReal) * Ideal.div (∑ i, (a i : EReal)) (n : EReal) = (v : EReal)
      ∧ Ideal.div (∑ i, ((a i : EReal) - Ideal.div (∑ j, (a j : EReal)) (n : EReal))
                        * ((a i : EReal) - Ideal.div (∑ j, (a j : EReal)) (n : EReal))) (n : EReal) = (v : EReal) := by
  have hnn : 0 ≤ n := hcard ▸ Nat.cast_nonneg _
  have h2 : Ideal.div (∑ i, ((a i : EReal) - Ideal.div (∑ j, (a j : EReal)) (n : EReal))
                        * ((a i : EReal) - Ideal.div (∑ j, (a j : EReal)) (n : EReal))) (n : EReal)
      = (((∑ i, (a i - (∑ j, a j) / n) * (a i - (∑ j, a j) / n)) / n : ℝ) : EReal) := by
    rw [mean_eq_coe a hn]
    simp only [← EReal.coe_mul, ← EReal.coe_sub, ← coe_sum_univ, div_coe_coe _ hn]
  refine ⟨(∑ i, (a i - (∑ j, a j) / n) * (a i - (∑ j, a j) / n)) / n,
    div_nonneg (Finset.sum_nonneg fun i _ => mul_self_nonneg _) hnn, ?_, h2⟩
  rw [variance a hcard hn, h2]

/-! ## 2. The reals are closed, inside the extended reals, under the operations of a program

  `IsReal x` says that `x` is the coercion of a real number. The arithmetic and lattice operations, finite sums,
  division by a nonzero real, the reciprocal square root of a positive real and the smooth unary functions all
  keep a value real. -/

/-- An extended real is *real* when it is the coercion of a real number, i.e. neither infinity. -/
def IsReal (x : EReal) : Prop := ∃ r : ℝ, x = (r : EReal)

namespace IsReal

/-- The coercion of a real number is real. -/
theorem coe (r : ℝ) : IsReal (r : EReal) := ⟨r, rfl⟩

/-- Zero is real. -/
theorem zero : IsReal (0 : EReal) := ⟨0, rfl⟩

/-- One is real. -/
theorem one : IsReal (1 : EReal) := ⟨1, rfl⟩

/-- A real value is not `⊤`. -/
theorem ne_top {x : EReal} (h : IsReal x) : x ≠ ⊤ := by
  obtain ⟨r, rfl⟩ := h; exact EReal.coe_ne_top r

/-- A real value is not `⊥`. -/
theorem ne_bot {x : EReal} (h : IsReal x) : x ≠ ⊥ := by
  obtain ⟨r, rfl⟩ := h; exact EReal.coe_ne_bot r

/-- An extended real is real exactly when it is neither `⊥` nor `⊤`. -/
theorem iff_ne {x : EReal} : IsReal x ↔ x ≠ ⊥ ∧ x ≠ ⊤ := by
  constructor
  · exact fun h => ⟨h.ne_bot, h.ne_top⟩
  · rintro ⟨hb, ht⟩
    induction x using EReal.rec with
    | bot => exact absurd rfl hb
    | coe r => exact ⟨r, rfl⟩
    | top => exact absurd rfl ht

/-- A real value is the coercion of its real part `x.toReal`. -/
theorem coe_toReal {x : EReal} (h : IsReal x) : ((x.toReal : ℝ) : EReal) = x := by
  obtain ⟨r, rfl⟩ := h; rfl

/-- The sum of two reals is real. -/
protected theorem add {x y : EReal} (hx : IsReal x) (hy : IsReal y) : IsReal (x + y) := by
  obtain ⟨a, rfl⟩ := hx; obtain ⟨b, rfl⟩ := hy; exact ⟨a + b, (EReal.coe_add a b).symm⟩

/-- The negation of a real is real. -/
protected theorem neg {x : EReal} (hx : IsReal x) : IsReal (-x) := by
  obtain ⟨a, rfl⟩ := hx; exact ⟨-a, (EReal.coe_neg a).symm⟩

/-- The difference of two reals is real. -/
protected theorem sub {x y : EReal} (hx : IsReal x) (hy : IsReal y) : IsReal (x - y) := by
  obtain ⟨a, rfl⟩ := hx; obtain ⟨b, rfl⟩ := hy; exact ⟨a - b, (EReal.coe_sub a b).symm⟩

/-- The product of two reals is real. -/
protected theorem mul {x y : EReal} (hx : IsReal x) (hy : IsReal y) : IsReal (x * y) := by
  obtain ⟨a, rfl⟩ := hx; obtain ⟨b, rfl⟩ := hy; exact ⟨a * b, (EReal.coe_mul a b).symm⟩

/-- The coercion commutes with the maximum (it is monotone). -/
theorem coe_max (a b : ℝ) : ((max a b : ℝ) : EReal) = max (a : EReal) (b : EReal) :=
  EReal.coe_strictMono.monotone.map_max

/-- The coercion commutes with the minimum (it is monotone). -/
theorem coe_min (a b : ℝ) : ((min a b : ℝ) : EReal) = min (a : EReal) (b : EReal) :=
  EReal.coe_strictMono.monotone.map_min

/-- The maximum of two reals is real. -/
protected theorem max {x y : EReal} (hx : IsReal x) (hy : IsReal y) : IsReal (max x y) := by
  obtain ⟨a, rfl⟩ := hx; obtain ⟨b, rfl⟩ := hy; exact ⟨Max.max a b, (coe_max a b).symm⟩

/-- The minimum of two reals is real. -/
protected theorem min {x y : EReal} (hx : IsReal x) (hy : IsReal y) : IsReal (min x y) := by
  obtain ⟨a, rfl⟩ := hx; obtain ⟨b, rfl⟩ := hy; exact ⟨Min.min a b, (coe_min a b).symm⟩

/-- A finite sum of reals is real. -/
protected theorem sum {ι : Type*} (s : Finset ι) (f : ι → EReal) (h : ∀ i ∈ s, IsReal (f i)) :
    IsReal (∑ i ∈ s, f i) := by
  classical
  induction s using Finset.induction_on with
  | empty => rw [Finset.sum_empty]; exact zero
  | insert a s ha ih =>
    rw [Finset.sum_insert ha]
    exact (h a (Finset.mem_insert_self a s)).add (ih fun i hi => h i (Finset.mem_insert_of_mem hi))

/-- A sum of reals over a whole finite index type is real. -/
protected theorem sum_univ {ι : Type*} [Fintype ι] (f : ι → EReal) (h : ∀ i, IsReal (f i)) :
    IsReal (∑ i, f i) :=
  IsReal.sum Finset.univ f fun i _ => h i

/-- The quotient of a real by a nonzero real is real: it is the coercion of the real quotient. -/
theorem div_coe {x : EReal} (hx : IsReal x) {n : ℝ} (hn : n ≠ 0) : IsReal (Ideal.div x (n : EReal)) := by
  obtain ⟨a, rfl⟩ := hx
  exact ⟨a * (1 / n), by rw [Ideal.div_coe hn, EReal.coe_mul]⟩

/-- The quotient of two reals with a nonzero divisor is real. -/
protected theorem div {x y : EReal} (hx : IsReal x) (hy : IsReal y) (h0 : y ≠ 0) : IsReal (Ideal.div x y) := by
  obtain ⟨b, rfl⟩ := hy
  exact hx.div_coe (fun hb => h0 (by rw [hb, EReal.coe_zero]))

/-- The reciprocal square root of a positive real `r` is the real `(√r)⁻¹`, which is positive. -/
theorem rsqrt_coe_pos {r : ℝ} (hr : 0 < r) :
    Ideal.rsqrt (r : EReal) = (((Real.sqrt r)⁻¹ : ℝ) : EReal) ∧ 0 < (Real.sqrt r)⁻¹ := by
  refine ⟨?_, inv_pos.mpr (Real.sqrt_pos.mpr hr)⟩
  rw [Ideal.rsqrt_coe, if_neg (not_lt.mpr hr.le), if_neg hr.ne']

/-- The reciprocal square root of a positive real is a positive real. -/
theorem rsqrt_pos {x : EReal} (hx : IsReal x) (h0 : 0 < x) :
    ∃ s : ℝ, 0 < s ∧ Ideal.rsqrt x = (s : EReal) := by
  obtain ⟨r, rfl⟩ := hx
  have hr : 0 < r := EReal.coe_pos.mp h0
  exact ⟨(Real.sqrt r)⁻¹, (rsqrt_coe_pos hr).2, (rsqrt_coe_pos hr).1⟩

/-- The reciprocal square root of a positive real is real. -/
protected theorem rsqrt {x : EReal} (hx : IsReal x) (h0 : 0 < x) : IsReal (Ideal.rsqrt x) := by
  obtain ⟨s, _, hs⟩ := rsqrt_pos hx h0
  exact ⟨s, hs⟩

/-- A real `≥ 0` plus a real `> 0` is a real `> 0` (a variance plus its `ε`). -/
theorem add_pos_of_nonneg_of_pos {v e : ℝ} (hv : 0 ≤ v) (he : 0 < e) :
    ∃ r : ℝ, 0 < r ∧ (v : EReal) + (e : EReal) = (r : EReal) :=
  ⟨v + e, by positivity, (EReal.coe_add v e).symm⟩

/-- The hyperbolic tangent of a real is real. -/
protected theorem tanh {x : EReal} (hx : IsReal x) : IsReal (Ideal.tanh x) := by
  obtain ⟨r, rfl⟩ := hx; exact ⟨Real.tanh r, Ideal.tanh_coe r⟩

/-- The exponential of a real is real (and positive). -/
protected theorem exp {x : EReal} (hx : IsReal x) : IsReal (Ideal.exp x) := by
  obtain ⟨r, rfl⟩ := hx; exact ⟨Real.exp r, Ideal.exp_coe r⟩

/-- The logistic function of a real is real. -/
protected theorem logistic {x : EReal} (hx : IsReal x) : IsReal (Ideal.logistic x) := by
  obtain ⟨r, rfl⟩ := hx; exact ⟨(1 + Real.exp (-r))⁻¹, Ideal.logistic_coe r⟩

end IsReal

end LibRealSums
-- ==== Proof.Algebra.lean ====
/-
  The two spellings of the gated cell agree on real entries.

  The split spelling contracts the state columns and the input columns separately, halves with `L · ½ + ½` and
  writes the new state as `ng · (1 − fg) + fg · a`; the concatenated spelling contracts all 768 columns at once,
  halves with `(L + 1) · ½` and writes `(ng − fg · ng) + fg · a`. Splitting the contraction is a regrouping of a
  finite sum and needs nothing. The other two steps are distributivity, which fails at the infinities of the
  extended reals, so they are proved for entries that are coercions of real numbers: the real witnesses are
  chosen, the coercion is pushed outwards through sums and products, and the identity is closed in the reals.
-/
import Mathlib
import proofs.«175391_j25469156065829_2_alg».proof.Proof.Spec
import proofs.«175391_j25469156065829_2_alg».proof.Proof.LibRealSums

noncomputable section

open scoped BigOperators
open Idealize.ShloMosaic Idealize.ShloMosaic.ValueIdx
open LibRealSums

namespace Mgu

/-! ## The two constants -/

/-- The pattern `0x3F000000` has sign 0, exponent 126 and mantissa 0: it denotes `2⁻¹`. -/
theorem half_eq : half = ((1/2 : ℝ) : EReal) := by
  simp [half, Ideal.ofBits, Ideal.ieee, -EReal.coe_mul]; norm_num

/-- The pattern `0x3F800000` has sign 0, exponent 127 and mantissa 0: it denotes `1`. -/
theorem one_eq : one = ((1 : ℝ) : EReal) := by
  simp [one, Ideal.ofBits, Ideal.ieee, -EReal.coe_mul]; norm_num

theorem isReal_half : IsReal half := ⟨1/2, half_eq⟩

theorem isReal_one : IsReal one := ⟨1, one_eq⟩

/-! ## Splitting the contraction over the concatenation -/

/-- The concatenation at a state column is the state entry. -/
theorem cat_lo (a : Fin 512 → EReal) (x : Fin 256 → EReal) (k : Fin 512) : cat a x (lo k) = a k := by
  unfold cat
  rw [dif_pos (show (lo k).val < 512 from k.isLt)]

/-- The concatenation at an input column is the input entry. -/
theorem cat_hi (a : Fin 512 → EReal) (x : Fin 256 → EReal) (k : Fin 256) : cat a x (hi k) = x k := by
  unfold cat
  rw [dif_neg (show ¬ (hi k).val < 512 from by simp only [hi]; omega)]
  exact congrArg x (Fin.ext (by simp only [hi]; omega))

/-- A sum over the 768 columns is the sum over the 512 state columns plus the sum over the 256 input columns. -/
theorem sum_768_split {M : Type*} [AddCommMonoid M] (f : Fin 768 → M) :
    ∑ k : Fin 768, f k = ∑ k : Fin 512, f (lo k) + ∑ k : Fin 256, f (hi k) := by
  have h := Fin.sum_univ_add (a := 512) (b := 256) (fun k : Fin (512 + 256) => f k)
  refine h.trans ?_
  refine congrArg₂ (· + ·) (Finset.sum_congr rfl fun k _ => congrArg f (Fin.ext rfl))
    (Finset.sum_congr rfl fun k _ => congrArg f (Fin.ext rfl))

/-- The contraction over all 768 columns of `[a ; x]` is the contraction over the state part plus the contraction
    over the input part. This is a regrouping of one finite sum and holds for all extended reals. -/
theorem linC_eq_linS (a : Fin 512 → EReal) (x : Fin 256 → EReal) (w : Fin 768 → EReal) (b : EReal) :
    linC a x w b = linS a x w b := by
  unfold linC linS
  rw [sum_768_split (fun k => cat a x k * w k)]
  simp only [cat_lo, cat_hi]

/-! ## Real entries stay real -/

/-- An affine map of real rows with real weights and a real bias is real. -/
theorem isReal_linS {a : Fin 512 → EReal} {x : Fin 256 → EReal} {w : Fin 768 → EReal} {b : EReal}
    (ha : ∀ k, IsReal (a k)) (hx : ∀ k, IsReal (x k)) (hw : ∀ k, IsReal (w k)) (hb : IsReal b) :
    IsReal (linS a x w b) := by
  unfold linS
  exact ((IsReal.sum_univ _ fun k => (ha k).mul (hw (lo k))).add
    (IsReal.sum_univ _ fun k => (hx k).mul (hw (hi k)))).add hb

/-- The forget gate of real entries is real. -/
theorem isReal_fgS {a : Fin 512 → EReal} {x : Fin 256 → EReal} {wf : Fin 512 → Fin 768 → EReal}
    {bf : Fin 512 → EReal} (ha : ∀ k, IsReal (a k)) (hx : ∀ k, IsReal (x k))
    (hwf : ∀ i k, IsReal (wf i k)) (hbf : ∀ i, IsReal (bf i)) (h : Fin 512) :
    IsReal (fgS a x wf bf h) := by
  unfold fgS
  exact ((isReal_linS ha hx (hwf h) (hbf h)).mul isReal_half).add isReal_half

/-! ## The two identities, in the reals -/

/-- For a real `L`: `(L + 1) · ½ = L · ½ + ½`. -/
theorem halve_real (L : ℝ) : ((L : EReal) + one) * half = (L : EReal) * half + half := by
  rw [half_eq, one_eq, ← EReal.coe_add, ← EReal.coe_mul, ← EReal.coe_mul, ← EReal.coe_add]
  exact congrArg Real.toEReal (by ring)

/-- For reals `r s t`: `r · (1 − s) + s · t = (r − s · r) + s · t`. -/
theorem blend_real (r s t : ℝ) :
    (r : EReal) * (one - (s : EReal)) + (s : EReal) * (t : EReal)
      = ((r : EReal) - (s : EReal) * (r : EReal)) + (s : EReal) * (t : EReal) := by
  rw [one_eq, ← EReal.coe_sub, ← EReal.coe_mul, ← EReal.coe_mul, ← EReal.coe_mul, ← EReal.coe_sub,
    ← EReal.coe_add, ← EReal.coe_add]
  exact congrArg Real.toEReal (by ring)

/-! ## The forget gate and the new state -/

/-- On real entries the two spellings of the forget gate agree. -/
theorem fgC_eq_fgS {a : Fin 512 → EReal} {x : Fin 256 → EReal} {wf : Fin 512 → Fin 768 → EReal}
    {bf : Fin 512 → EReal} (ha : ∀ k, IsReal (a k)) (hx : ∀ k, IsReal (x k))
    (hwf : ∀ i k, IsReal (wf i k)) (hbf : ∀ i, IsReal (bf i)) (h : Fin 512) :
    fgC a x wf bf h = fgS a x wf bf h := by
  unfold fgC fgS
  rw [linC_eq_linS]
  obtain ⟨L, hL⟩ := isReal_linS ha hx (hwf h) (hbf h)
  rw [hL]
  exact halve_real L

/-- On real entries the two spellings of the forget gate agree (split spelling on the left). -/
theorem fgS_eq_fgC {a : Fin 512 → EReal} {x : Fin 256 → EReal} {wf : Fin 512 → Fin 768 → EReal}
    {bf : Fin 512 → EReal} (ha : ∀ k, IsReal (a k)) (hx : ∀ k, IsReal (x k))
    (hwf : ∀ i k, IsReal (wf i k)) (hbf : ∀ i, IsReal (bf i)) (h : Fin 512) :
    fgS a x wf bf h = fgC a x wf bf h :=
  (fgC_eq_fgS ha hx hwf hbf h).symm

/-- On real entries the two spellings of the new state agree. -/
theorem outS_eq_outC (a : Fin 512 → EReal) (x : Fin 256 → EReal) (wf : Fin 512 → Fin 768 → EReal)
    (bf : Fin 512 → EReal) (wn : Fin 512 → Fin 768 → EReal) (bn : Fin 512 → EReal) (h : Fin 512)
    (ha : ∀ k, IsReal (a k)) (hx : ∀ k, IsReal (x k))
    (hwf : ∀ i k, IsReal (wf i k)) (hbf : ∀ i, IsReal (bf i))
    (hwn : ∀ i k, IsReal (wn i k)) (hbn : ∀ i, IsReal (bn i)) :
    outS a x wf bf wn bn h = outC a x wf bf wn bn h := by
  have hfg : ∀ k, fgC a x wf bf k = fgS a x wf bf k := fgC_eq_fgS ha hx hwf hbf
  unfold outS outC
  simp only [hfg, linC_eq_linS]
  have hga : ∀ k, IsReal (fgS a x wf bf k * a k) := fun k => (isReal_fgS ha hx hwf hbf k).mul (ha k)
  obtain ⟨r, hr⟩ := isReal_linS hga hx (hwn h) (hbn h)
  obtain ⟨s, hs⟩ := isReal_fgS ha hx hwf hbf h
  obtain ⟨t, ht⟩ := ha h
  rw [hr, hs, ht]
  exact blend_real r s t

/-! ## The whole arrays -/

/-- On real arguments the two spellings of the result array agree. -/
theorem GS_eq_GC (X : (⟨2, ![65536, 256]⟩ : Shape).Idx → EReal) (H : (⟨2, ![65536, 512]⟩ : Shape).Idx → EReal)
    (WF : (⟨2, ![512, 768]⟩ : Shape).Idx → EReal) (BF : (⟨1, ![512]⟩ : Shape).Idx → EReal)
    (WN : (⟨2, ![512, 768]⟩ : Shape).Idx → EReal) (BN : (⟨1, ![512]⟩ : Shape).Idx → EReal)
    (hX : ∀ i, IsReal (X i)) (hH : ∀ i, IsReal (H i)) (hWF : ∀ i, IsReal (WF i)) (hBF : ∀ i, IsReal (BF i))
    (hWN : ∀ i, IsReal (WN i)) (hBN : ∀ i, IsReal (BN i)) :
    GS X H WF BF WN BN = GC X H WF BF WN BN := by
  funext i
  unfold GS GC
  exact outS_eq_outC (row H (i 0)) (row X (i 0)) (mat WF) (vec BF) (mat WN) (vec BN) (i 1)
    (fun k => hH _) (fun k => hX _) (fun r k => hWF _) (fun k => hBF _) (fun r k => hWN _) (fun k => hBN _)

end Mgu

end
-- ==== Proof.Finite.lean ====
/-
  From the printed precondition to "every entry of every argument is a real number".

  The precondition takes, for each of the six float arguments, the absolute value of every entry, compares it with
  the pattern of `+∞` by `<`, reduces the comparisons by `and` over all axes, and joins the six results by `and`.
  When the result is 1 every comparison is 1, so `|x| < ⊤` at every entry `x`; an extended real whose absolute
  value `max x (-x)` is below `⊤` is neither `⊥` (whose negation is `⊤`) nor `⊤`, hence the coercion of a real.
-/
import Mathlib
import proofs.«175391_j25469156065829_2_alg».proof.Pre_finite_inputs
import Idealize.ShloMosaic.PureOps.Ideal
import Idealize.ShloMosaic.Lib.ReduceAll
import Idealize.ShloMosaic.Lib.ValueIdx
import proofs.«175391_j25469156065829_2_alg».proof.Proof.LibRealSums

noncomputable section

open Idealize.ShloMosaic
open Cert.Pre_finite_inputs
open LibRealSums

namespace Mgu.Finite

/-- A shape of rank 0 has one index. -/
instance subsingleton_S_Idx : Subsingleton S_.Idx := ⟨fun a b => funext fun d => d.elim0⟩

/-- The pattern `0x7F800000` has sign 0, all exponent bits set and mantissa 0: it denotes `⊤`. -/
theorem ofBits_inf : Ideal.ofBits .f32 0x7F800000#32 = (⊤ : EReal) := by
  simp [Ideal.ofBits, Ideal.ieee]

/-- An extended real whose absolute value is below `⊤` is real: `|⊥| = |⊤| = ⊤`. -/
theorem isReal_of_abs_lt_top (x : EReal) (h : max x (-x) < ⊤) : IsReal x := by
  induction x using EReal.rec with
  | bot => simp at h
  | coe r => exact ⟨r, rfl⟩
  | top => simp at h

/-- The element fact of the precondition: the comparison `|x| < +∞` came out 1, so `x` is real. -/
theorem isReal_of_cmp (x : EReal)
    (h : Ideal.cmp .olt (max x (-x)) (Ideal.ofBits .f32 0x7F800000#32) = 1#1) : IsReal x := by
  rw [ofBits_inf] at h
  refine isReal_of_abs_lt_top x ?_
  by_cases hp : max x (-x) < ⊤
  · exact hp
  · exfalso
    simp [Ideal.cmp, hp] at h

/-- One argument: when the `and` over all axes of the comparisons `|x i| < +∞` is 1, every `x i` is real. -/
theorem all_real {s : Shape} {axes : List (Fin s.rank)} (x : FVec Ideal s .f32)
    (dims : Fin S_.rank → Fin s.rank) (hb : S_.BroadcastsInDim s dims) (hr : s.ReducesTo axes S_)
    (hu : 0 < S_.numel) (init : IVec S_ 1)
    (e : Host.reduce IntOp.andi
          (cmpf .olt (Host.absf x) (broadcastInDim s dims hb (constant S_ .f32 0x7F800000#32)))
          init hr hu ValueIdx.ix0 = 1#1) :
    ∀ i, IsReal (x i) := fun i =>
  isReal_of_cmp (x i) (Host.reduce_andi_all _ init hr hu ValueIdx.ix0 e i)

variable [Facts]

/-- The precondition decoded: every entry of each of the six arguments is a real number. -/
theorem real_of_pre (x0 : FVec Ideal S65536x256 .f32) (x1 : FVec Ideal S65536x512 .f32)
    (x2 : FVec Ideal S512x768 .f32) (x3 : FVec Ideal S512 .f32) (x4 : FVec Ideal S512x768 .f32)
    (x5 : FVec Ideal S512 .f32)
    (h : Cert.Pre_finite_inputs.fn (F := Ideal) x0 x1 x2 x3 x4 x5 = (fun _ => 1#1)) :
    (∀ i, IsReal (x0 i)) ∧ (∀ i, IsReal (x1 i)) ∧ (∀ i, IsReal (x2 i)) ∧ (∀ i, IsReal (x3 i))
      ∧ (∀ i, IsReal (x4 i)) ∧ (∀ i, IsReal (x5 i)) := by
  have e := congrFun h ValueIdx.ix0
  dsimp only [Cert.Pre_finite_inputs.fn, Cert.Pre_finite_inputs.fn_part1] at e
  obtain ⟨e4, h5⟩ := IntOp.andi_eq_one.1 e
  obtain ⟨e3, h4⟩ := IntOp.andi_eq_one.1 e4
  obtain ⟨e2, h3⟩ := IntOp.andi_eq_one.1 e3
  obtain ⟨e1, h2⟩ := IntOp.andi_eq_one.1 e2
  obtain ⟨h0, h1⟩ := IntOp.andi_eq_one.1 e1
  exact ⟨all_real x0 _ _ _ _ _ h0, all_real x1 _ _ _ _ _ h1, all_real x2 _ _ _ _ _ h2,
    all_real x3 _ _ _ _ _ h3, all_real x4 _ _ _ _ _ h4, all_real x5 _ _ _ _ _ h5⟩

end Mgu.Finite

end
-- ==== Proof.RefSide.lean ====
/-
  The reference program computes the gated cell in its concatenated spelling.

  The reference forms the row `[h ; x]` of 768 columns by joining the state row (512 columns) and the input row
  (256 columns), contracts it with each gate's weight row, adds the bias, adds one and halves to obtain the forget
  gate `fg`; it then joins `[fg · h ; x]`, contracts that with the second weight, adds the second bias to obtain the
  new gate `ng`, and returns `(ng − fg · ng) + fg · h`. Read at the index `(p, q)` — batch row `p`, hidden unit `q` —
  every stage is a function of row `p` of the two data arrays, of row `q` of a weight and of entry `q` of a bias,
  and the stages compose to `Mgu.outC` of those rows, i.e. to `Mgu.GC` at `(p, q)`.

  The one step that is not the unfolding of a definition is reading a join of two arrays along the column axis at
  `(p, k)`: for `k < 512` it is the first array at `(p, k)`, otherwise the second at `(p, k − 512)`; this is
  `Mgu.cat` of the two rows.
-/
import proofs.«175391_j25469156065829_2_alg».proof.Proof.Gen.ReferenceIdeal.Read
import proofs.«175391_j25469156065829_2_alg».proof.Proof.Spec
import Idealize.ShloMosaic.Lib.ValueIdx
import Idealize.ShloMosaic.Lib.Pipeline.Value
import Idealize.ShloMosaic.PureOps.Ideal.Laws

noncomputable section

namespace Cert.ReferenceIdeal.RefValue

open Cert.ReferenceIdeal Cert.ReferenceIdeal.Gen Cert.ReferenceIdeal.Read Idealize.ShloMosaic Idealize.ShloMosaic.ValueIdx
open scoped BigOperators

/-! ## A join along the column axis, read at an index -/

/-- The join of a `[65536, 512]` array `a` and a `[65536, 256]` array `x` along the column axis, read at `(p, k)`,
    is the concatenation of row `p` of `a` and row `p` of `x` at column `k`: the entry `a (p, k)` when `k < 512`
    and `x (p, k − 512)` otherwise. -/
theorem concat_apply (a : (⟨S65536x512, .f32⟩ : BufTy).Contents (Elt Ideal))
    (x : (⟨S65536x256, .f32⟩ : BufTy).Contents (Elt Ideal)) (p : Fin 65536) (k : Fin 768) :
    concatenate S65536x768 1 [⟨S65536x512, a⟩, ⟨S65536x256, x⟩] concatenates_S65536x512_S65536x256_S65536x768_d1
        (ix2 p k)
      = Mgu.cat (fun k' => a (ix2 p k')) (fun k' => x (ix2 p k')) k := by
  unfold Mgu.cat
  split
  · next h =>
    -- the column falls in the first piece: same coordinates
    refine concatenate_pair_apply_left (1 : Fin S65536x768.rank) a x _ (ix2 p k) rfl (ix2 p ⟨k.val, h⟩) ?_
    intro b
    match b with
    | ⟨0, _⟩ => rfl
    | ⟨1, _⟩ => rfl
  · next h =>
    -- the column falls in the second piece: same row, the column less the first piece's 512
    refine concatenate_pair_apply_right (1 : Fin S65536x768.rank) a x _ (ix2 p k) rfl rfl
      (ix2 p ⟨k.val - 512, by omega⟩) ?_ ?_
    · intro b hb
      match b, hb with
      | ⟨0, _⟩, _ => rfl
      | ⟨1, _⟩, hb => exact absurd rfl hb
    · show (k.val - 512) + 512 = k.val
      omega

/-! ## The index maps of the generated reading lemmas, at explicit coordinates -/

/-- In the first contraction the left operand is read at `(p, k)`. -/
theorem lidx1_eq (p : Fin 65536) (q : Fin 512) (k : Fin 768) : lidx_main_v1 (ix2 p q) k = ix2 p k := by
  funext a
  match a with
  | ⟨0, _⟩ => rfl
  | ⟨1, _⟩ => rfl

/-- In the first contraction the weight is read at `(q, k)`. -/
theorem ridx1_eq (p : Fin 65536) (q : Fin 512) (k : Fin 768) : ridx_main_v1 (ix2 p q) k = ix2 q k := by
  funext a
  match a with
  | ⟨0, _⟩ => rfl
  | ⟨1, _⟩ => rfl

/-- In the second contraction the left operand is read at `(p, k)`. -/
theorem lidx11_eq (p : Fin 65536) (q : Fin 512) (k : Fin 768) : lidx_main_v11 (ix2 p q) k = ix2 p k := by
  funext a
  match a with
  | ⟨0, _⟩ => rfl
  | ⟨1, _⟩ => rfl

/-- In the second contraction the weight is read at `(q, k)`. -/
theorem ridx11_eq (p : Fin 65536) (q : Fin 512) (k : Fin 768) : ridx_main_v11 (ix2 p q) k = ix2 q k := by
  funext a
  match a with
  | ⟨0, _⟩ => rfl
  | ⟨1, _⟩ => rfl

/-- The first bias, broadcast to `[1, 512]` and then to `[65536, 512]`, is read at `q`. -/
theorem idx23_eq (p : Fin 65536) (q : Fin 512) : idx_main_v2 (idx_main_v3 (ix2 p q)) = ix1 q := by
  funext a
  match a with
  | ⟨0, _⟩ => rfl

/-- The second bias, broadcast to `[1, 512]` and then to `[65536, 512]`, is read at `q`. -/
theorem idx1213_eq (p : Fin 65536) (q : Fin 512) : idx_main_v12 (idx_main_v13 (ix2 p q)) = ix1 q := by
  funext a
  match a with
  | ⟨0, _⟩ => rfl

/-! ## The stages, read at `(p, q)` -/

/-- The first join `[h ; x]`, at the index the first contraction reads it, is the concatenation of row `p` of the
    state and row `p` of the input. -/
theorem val_main_v0_read (x0 : (⟨S65536x256, .f32⟩ : BufTy).Contents (Elt Ideal))
    (x1 : (⟨S65536x512, .f32⟩ : BufTy).Contents (Elt Ideal)) (p : Fin 65536) (q : Fin 512) (k : Fin 768) :
    val_main_v0 (F := Ideal) x0 x1 (lidx_main_v1 (ix2 p q) k)
      = Mgu.cat (fun k' => x1 (ix2 p k')) (fun k' => x0 (ix2 p k')) k := by
  rw [lidx1_eq]
  exact concat_apply x1 x0 p k

/-- The second join `[fg · h ; x]`, at the index the second contraction reads it, is the concatenation of row `p` of
    the gated state and row `p` of the input. -/
theorem val_main_v10_read (x0 : (⟨S65536x256, .f32⟩ : BufTy).Contents (Elt Ideal))
    (x1 : (⟨S65536x512, .f32⟩ : BufTy).Contents (Elt Ideal)) (x2 : (⟨S512x768, .f32⟩ : BufTy).Contents (Elt Ideal))
    (x3 : (⟨S512, .f32⟩ : BufTy).Contents (Elt Ideal)) (p : Fin 65536) (q : Fin 512) (k : Fin 768) :
    val_main_v10 (F := Ideal) x0 x1 x2 x3 (lidx_main_v11 (ix2 p q) k)
      = Mgu.cat (fun k' => val_main_v9 (F := Ideal) x0 x1 x2 x3 (ix2 p k')) (fun k' => x0 (ix2 p k')) k := by
  rw [lidx11_eq]
  exact concat_apply (val_main_v9 (F := Ideal) x0 x1 x2 x3) x0 p k

/-- The forget gate at `(p, q)`: `(W_f [h ; x] + b_f + 1) · ½` of row `p`, at hidden unit `q`. The two constants
    are the bit patterns the specification names `one` and `half`; they are compared as patterns and never
    evaluated. -/
theorem val_main_v8_read (x0 : (⟨S65536x256, .f32⟩ : BufTy).Contents (Elt Ideal))
    (x1 : (⟨S65536x512, .f32⟩ : BufTy).Contents (Elt Ideal)) (x2 : (⟨S512x768, .f32⟩ : BufTy).Contents (Elt Ideal))
    (x3 : (⟨S512, .f32⟩ : BufTy).Contents (Elt Ideal)) (p : Fin 65536) (q : Fin 512) :
    val_main_v8 (F := Ideal) x0 x1 x2 x3 (ix2 p q)
      = Mgu.fgC (Mgu.row x1 p) (Mgu.row x0 p) (Mgu.mat x2) (Mgu.vec x3) q := by
  unfold Mgu.fgC Mgu.linC
  rw [val_main_v8_apply, val_main_v7_apply, val_main_cst_0_apply, val_main_v6_apply, val_main_v5_apply,
    val_main_cst_apply, val_main_v4_apply, val_main_v3_apply, val_main_v2_apply, val_main_v1_apply, idx23_eq]
  simp only [Ideal.mulf_def, Ideal.addf_def, Ideal.ofBits_def]
  -- both sides are `(∑ + b_f q + one) · half`; the sums agree term by term
  refine congrArg (fun s => (s + x3 (ix1 q) + Mgu.one) * Mgu.half) (Finset.sum_congr rfl fun k _ => ?_)
  rw [val_main_v0_read, ridx1_eq]

/-- The gated state at `(p, q)`: `fg q · h (p, q)`. -/
theorem val_main_v9_read (x0 : (⟨S65536x256, .f32⟩ : BufTy).Contents (Elt Ideal))
    (x1 : (⟨S65536x512, .f32⟩ : BufTy).Contents (Elt Ideal)) (x2 : (⟨S512x768, .f32⟩ : BufTy).Contents (Elt Ideal))
    (x3 : (⟨S512, .f32⟩ : BufTy).Contents (Elt Ideal)) (p : Fin 65536) (q : Fin 512) :
    val_main_v9 (F := Ideal) x0 x1 x2 x3 (ix2 p q)
      = Mgu.fgC (Mgu.row x1 p) (Mgu.row x0 p) (Mgu.mat x2) (Mgu.vec x3) q * Mgu.row x1 p q := by
  rw [val_main_v9_apply, val_main_v8_read]
  rfl

/-- The new gate at `(p, q)`: `W_n [fg · h ; x] + b_n` of row `p`, at hidden unit `q`. Inside the contraction the
    gated state is read at every hidden unit `k` of row `p`, where it is `fg k · h (p, k)`. -/
theorem val_main_v14_read (x0 : (⟨S65536x256, .f32⟩ : BufTy).Contents (Elt Ideal))
    (x1 : (⟨S65536x512, .f32⟩ : BufTy).Contents (Elt Ideal)) (x2 : (⟨S512x768, .f32⟩ : BufTy).Contents (Elt Ideal))
    (x3 : (⟨S512, .f32⟩ : BufTy).Contents (Elt Ideal)) (x4 : (⟨S512x768, .f32⟩ : BufTy).Contents (Elt Ideal))
    (x5 : (⟨S512, .f32⟩ : BufTy).Contents (Elt Ideal)) (p : Fin 65536) (q : Fin 512) :
    val_main_v14 (F := Ideal) x0 x1 x2 x3 x4 x5 (ix2 p q)
      = Mgu.linC (fun k => Mgu.fgC (Mgu.row x1 p) (Mgu.row x0 p) (Mgu.mat x2) (Mgu.vec x3) k * Mgu.row x1 p k)
          (Mgu.row x0 p) (Mgu.mat x4 q) (Mgu.vec x5 q) := by
  unfold Mgu.linC
  rw [val_main_v14_apply, val_main_v13_apply, val_main_v12_apply, val_main_v11_apply, idx1213_eq]
  simp only [Ideal.addf_def]
  refine congrArg (fun s => s + x5 (ix1 q)) (Finset.sum_congr rfl fun k _ => ?_)
  rw [val_main_v10_read, ridx11_eq]
  -- row `p` of the gated state, as a function of the hidden unit
  have e : (fun k' : Fin 512 => val_main_v9 (F := Ideal) x0 x1 x2 x3 (ix2 p k'))
      = fun k => Mgu.fgC (Mgu.row x1 p) (Mgu.row x0 p) (Mgu.mat x2) (Mgu.vec x3) k * Mgu.row x1 p k :=
    funext fun k' => val_main_v9_read x0 x1 x2 x3 p k'
  rw [e]

/-! ## The reference is the gated cell -/

/-- The reference's result array is the gated cell in its concatenated spelling: at `(p, q)` it is
    `(ng − fg · ng) + fg · h` with `fg` and `ng` the two gates of row `p` at hidden unit `q`. -/
theorem ref_eq_GC (x0 : (⟨S65536x256, .f32⟩ : BufTy).Contents (Elt Ideal))
    (x1 : (⟨S65536x512, .f32⟩ : BufTy).Contents (Elt Ideal)) (x2 : (⟨S512x768, .f32⟩ : BufTy).Contents (Elt Ideal))
    (x3 : (⟨S512, .f32⟩ : BufTy).Contents (Elt Ideal)) (x4 : (⟨S512x768, .f32⟩ : BufTy).Contents (Elt Ideal))
    (x5 : (⟨S512, .f32⟩ : BufTy).Contents (Elt Ideal)) :
    Cert.ReferenceIdeal.Read.val_main_v17 (F := Ideal) x0 x1 x2 x3 x4 x5 = Mgu.GC x0 x1 x2 x3 x4 x5 := by
  funext i
  obtain ⟨p, q, rfl⟩ : ∃ p q, i = ValueIdx.ix2 p q := ⟨i 0, i 1, ValueIdx.eq_ix2 i⟩
  show val_main_v17 (F := Ideal) x0 x1 x2 x3 x4 x5 (ix2 p q)
    = Mgu.outC (Mgu.row x1 p) (Mgu.row x0 p) (Mgu.mat x2) (Mgu.vec x3) (Mgu.mat x4) (Mgu.vec x5) q
  unfold Mgu.outC
  rw [val_main_v17_apply, val_main_v16_apply, val_main_v15_apply, val_main_v9_read, val_main_v14_read,
    val_main_v8_read]
  rfl

end Cert.ReferenceIdeal.RefValue

end
-- ==== Proof.KPay.lean ====
/-
  One grid point's arithmetic, read at an index.

  The body loads a block of 1024 batch rows of the input `x` and of the state `hx`, the four weight blocks (each gate's
  matrix transposed and cut into its 512 state rows and its 256 input rows), and the two bias rows, and stores

      ng · (1 − fg) + fg · hx,   fg = (hx·Wfh + x·Wfx + bf) · ½ + ½,   ng = (fg·hx)·Wnh + x·Wnx + bn.

  Each matrix product is into a zero accumulator, so at the exact values it is a plain sum over the contracted
  coordinate; a change of float format is the identity; a bias row is broadcast down the rows. Row `p`, column `q` of the
  stored block is therefore the split spelling `Mgu.outS` of row `p`'s state and input entries, provided the weight
  blocks hold gate row `q`'s 768 columns (512 state columns, then 256 input columns).
-/
import proofs.«175391_j25469156065829_2_alg».proof.Proof.Gen.KernelIdeal.Skeleton
import proofs.«175391_j25469156065829_2_alg».proof.Proof.Spec
import Idealize.ShloMosaic.Lib.ValueIdx
import Idealize.ShloMosaic.Lib.Pipeline.Value
import Idealize.ShloMosaic.PureOps.Ideal.Laws

noncomputable section

namespace Cert.KernelIdeal.KVal

open Cert.KernelIdeal Cert.KernelIdeal.Gen Idealize.ShloMosaic Idealize.ShloMosaic.ValueIdx

/-! ## The two matrix products at an index -/

theorem mm_state_lhs0 (i : S1024x512.Idx) (c : dot_S1024x512_S512x512_S1024x512_1_0_0_1_n_n.contr.Idx) : (dot_S1024x512_S512x512_S1024x512_1_0_0_1_n_n.lhsIdx i c 0).val = (i 0).val := by
  unfold DotDims.lhsIdx
  rw [dif_neg (show ¬(0 : Fin S1024x512.rank) ∈ dot_S1024x512_S512x512_S1024x512_1_0_0_1_n_n.lhsBatch by decide), dif_pos (show (0 : Fin S1024x512.rank) ∈ dot_S1024x512_S512x512_S1024x512_1_0_0_1_n_n.lhsNonContracting by decide)]
  rfl
theorem mm_state_lhs1 (i : S1024x512.Idx) (c : dot_S1024x512_S512x512_S1024x512_1_0_0_1_n_n.contr.Idx) : (dot_S1024x512_S512x512_S1024x512_1_0_0_1_n_n.lhsIdx i c 1).val = (c ⟨0, by decide⟩).val :=
  dot_S1024x512_S512x512_S1024x512_1_0_0_1_n_n.lhsIdx_val_of_single rfl i c
theorem mm_state_rhs0 (i : S1024x512.Idx) (c : dot_S1024x512_S512x512_S1024x512_1_0_0_1_n_n.contr.Idx) : (dot_S1024x512_S512x512_S1024x512_1_0_0_1_n_n.rhsIdx i c 0).val = (c ⟨0, by decide⟩).val :=
  dot_S1024x512_S512x512_S1024x512_1_0_0_1_n_n.rhsIdx_val_of_single rfl i c
theorem mm_state_rhs1 (i : S1024x512.Idx) (c : dot_S1024x512_S512x512_S1024x512_1_0_0_1_n_n.contr.Idx) : (dot_S1024x512_S512x512_S1024x512_1_0_0_1_n_n.rhsIdx i c 1).val = (i 1).val := by
  unfold DotDims.rhsIdx
  rw [dif_neg (show ¬(1 : Fin S512x512.rank) ∈ dot_S1024x512_S512x512_S1024x512_1_0_0_1_n_n.rhsBatch by decide), dif_pos (show (1 : Fin S512x512.rank) ∈ dot_S1024x512_S512x512_S1024x512_1_0_0_1_n_n.rhsNonContracting by decide)]
  rfl

/-- A [1024,512] × [512,512] product into zero: row `p`, column `q` is the sum over the 512 contracted coordinates. -/
theorem mm_state (L : FVec Ideal S1024x512 .bf16) (R : FVec Ideal S512x512 .bf16) (p : Fin 1024) (q : Fin 512) :
    matmul dot_S1024x512_S512x512_S1024x512_1_0_0_1_n_n none L R (constant (F := Ideal) S1024x512 .f32 0x00000000#32) (ix2 p q)
      = ∑ k : Fin 512, L (ix2 p k) * R (ix2 k q) := by
  simp only [matmul]
  rw [Ideal.matmul_constant_zero_apply, ← Equiv.sum_comp (ValueIdx.contrEquiv1 dot_S1024x512_S512x512_S1024x512_1_0_0_1_n_n 512 rfl rfl).symm]
  refine Finset.sum_congr rfl fun k _ => ?_
  have hk := ValueIdx.contrEquiv1_symm_val dot_S1024x512_S512x512_S1024x512_1_0_0_1_n_n 512 rfl rfl k
  have el : dot_S1024x512_S512x512_S1024x512_1_0_0_1_n_n.lhsIdx (ix2 p q) ((ValueIdx.contrEquiv1 dot_S1024x512_S512x512_S1024x512_1_0_0_1_n_n 512 rfl rfl).symm k) = ix2 p k := funext fun a => Fin.ext (by
    match a with
    | ⟨0, _⟩ => exact mm_state_lhs0 _ _
    | ⟨1, _⟩ => exact (mm_state_lhs1 _ _).trans hk)
  have er : dot_S1024x512_S512x512_S1024x512_1_0_0_1_n_n.rhsIdx (ix2 p q) ((ValueIdx.contrEquiv1 dot_S1024x512_S512x512_S1024x512_1_0_0_1_n_n 512 rfl rfl).symm k) = ix2 k q := funext fun a => Fin.ext (by
    match a with
    | ⟨0, _⟩ => exact (mm_state_rhs0 _ _).trans hk
    | ⟨1, _⟩ => exact mm_state_rhs1 _ _)
  rw [el, er]

theorem mm_input_lhs0 (i : S1024x512.Idx) (c : dot_S1024x256_S256x512_S1024x512_1_0_0_1_n_n.contr.Idx) : (dot_S1024x256_S256x512_S1024x512_1_0_0_1_n_n.lhsIdx i c 0).val = (i 0).val := by
  unfold DotDims.lhsIdx
  rw [dif_neg (show ¬(0 : Fin S1024x256.rank) ∈ dot_S1024x256_S256x512_S1024x512_1_0_0_1_n_n.lhsBatch by decide), dif_pos (show (0 : Fin S1024x256.rank) ∈ dot_S1024x256_S256x512_S1024x512_1_0_0_1_n_n.lhsNonContracting by decide)]
  rfl
theorem mm_input_lhs1 (i : S1024x512.Idx) (c : dot_S1024x256_S256x512_S1024x512_1_0_0_1_n_n.contr.Idx) : (dot_S1024x256_S256x512_S1024x512_1_0_0_1_n_n.lhsIdx i c 1).val = (c ⟨0, by decide⟩).val :=
  dot_S1024x256_S256x512_S1024x512_1_0_0_1_n_n.lhsIdx_val_of_single rfl i c
theorem mm_input_rhs0 (i : S1024x512.Idx) (c : dot_S1024x256_S256x512_S1024x512_1_0_0_1_n_n.contr.Idx) : (dot_S1024x256_S256x512_S1024x512_1_0_0_1_n_n.rhsIdx i c 0).val = (c ⟨0, by decide⟩).val :=
  dot_S1024x256_S256x512_S1024x512_1_0_0_1_n_n.rhsIdx_val_of_single rfl i c
theorem mm_input_rhs1 (i : S1024x512.Idx) (c : dot_S1024x256_S256x512_S1024x512_1_0_0_1_n_n.contr.Idx) : (dot_S1024x256_S256x512_S1024x512_1_0_0_1_n_n.rhsIdx i c 1).val = (i 1).val := by
  unfold DotDims.rhsIdx
  rw [dif_neg (show ¬(1 : Fin S256x512.rank) ∈ dot_S1024x256_S256x512_S1024x512_1_0_0_1_n_n.rhsBatch by decide), dif_pos (show (1 : Fin S256x512.rank) ∈ dot_S1024x256_S256x512_S1024x512_1_0_0_1_n_n.rhsNonContracting by decide)]
  rfl

/-- A [1024,256] × [256,512] product into zero: row `p`, column `q` is the sum over the 256 contracted coordinates. -/
theorem mm_input (L : FVec Ideal S1024x256 .bf16) (R : FVec Ideal S256x512 .bf16) (p : Fin 1024) (q : Fin 512) :
    matmul dot_S1024x256_S256x512_S1024x512_1_0_0_1_n_n none L R (constant (F := Ideal) S1024x512 .f32 0x00000000#32) (ix2 p q)
      = ∑ k : Fin 256, L (ix2 p k) * R (ix2 k q) := by
  simp only [matmul]
  rw [Ideal.matmul_constant_zero_apply, ← Equiv.sum_comp (ValueIdx.contrEquiv1 dot_S1024x256_S256x512_S1024x512_1_0_0_1_n_n 256 rfl rfl).symm]
  refine Finset.sum_congr rfl fun k _ => ?_
  have hk := ValueIdx.contrEquiv1_symm_val dot_S1024x256_S256x512_S1024x512_1_0_0_1_n_n 256 rfl rfl k
  have el : dot_S1024x256_S256x512_S1024x512_1_0_0_1_n_n.lhsIdx (ix2 p q) ((ValueIdx.contrEquiv1 dot_S1024x256_S256x512_S1024x512_1_0_0_1_n_n 256 rfl rfl).symm k) = ix2 p k := funext fun a => Fin.ext (by
    match a with
    | ⟨0, _⟩ => exact mm_input_lhs0 _ _
    | ⟨1, _⟩ => exact (mm_input_lhs1 _ _).trans hk)
  have er : dot_S1024x256_S256x512_S1024x512_1_0_0_1_n_n.rhsIdx (ix2 p q) ((ValueIdx.contrEquiv1 dot_S1024x256_S256x512_S1024x512_1_0_0_1_n_n 256 rfl rfl).symm k) = ix2 k q := funext fun a => Fin.ext (by
    match a with
    | ⟨0, _⟩ => exact (mm_input_rhs0 _ _).trans hk
    | ⟨1, _⟩ => exact mm_input_rhs1 _ _)
  rw [el, er]

/-! ## A gate's affine map on a block -/

/-- A gate's pre-activation on a block: state part times its weight block, plus input part times its weight block,
    plus the bias row broadcast down the 1024 rows. -/
def linV (A : FVec Ideal S1024x512 .bf16) (X : FVec Ideal S1024x256 .bf16) (Wh : Vec Ideal S512x512 .bf16)
    (Wx : Vec Ideal S256x512 .bf16) (B : Vec Ideal S1x512 .f32) : FVec Ideal S1024x512 .f32 :=
  addf (addf (matmul dot_S1024x512_S512x512_S1024x512_1_0_0_1_n_n none A (shapeCast S512x512 Wh shapeCasts_S512x512_S512x512 : FVec Ideal S512x512 .bf16) (constant S1024x512 .f32 0x00000000#32))
      (matmul dot_S1024x256_S256x512_S1024x512_1_0_0_1_n_n none X (shapeCast S256x512 Wx shapeCasts_S256x512_S256x512 : FVec Ideal S256x512 .bf16) (constant S1024x512 .f32 0x00000000#32)))
    (broadcastTo S1024x512 (shapeCast S1x512 B shapeCasts_S1x512_S1x512 : FVec Ideal S1x512 .f32) broadcasts_S1x512_S1024x512)

/-- Read at row `p`, column `q`: the split affine map of the row's state and input entries against the column's
    weights and bias. -/
theorem linV_apply (A : FVec Ideal S1024x512 .bf16) (X : FVec Ideal S1024x256 .bf16) (Wh : Vec Ideal S512x512 .bf16)
    (Wx : Vec Ideal S256x512 .bf16) (B : Vec Ideal S1x512 .f32) (p : Fin 1024) (q : Fin 512)
    (a : Fin 512 → EReal) (x : Fin 256 → EReal) (w : Fin 768 → EReal) (b : EReal)
    (hA : ∀ k, A (ix2 p k) = a k) (hX : ∀ k, X (ix2 p k) = x k)
    (hWh : ∀ k, Wh (ix2 k q) = w (Mgu.lo k)) (hWx : ∀ k, Wx (ix2 k q) = w (Mgu.hi k))
    (hB : B (ix2 (0 : Fin 1) q) = b) :
    linV A X Wh Wx B (ix2 p q) = Mgu.linS a x w b := by
  unfold linV Mgu.linS
  rw [shapeCast_self, shapeCast_self, shapeCast_self]
  show (matmul dot_S1024x512_S512x512_S1024x512_1_0_0_1_n_n none A (Wh : FVec Ideal S512x512 .bf16) (constant S1024x512 .f32 0x00000000#32) (ix2 p q)
      + matmul dot_S1024x256_S256x512_S1024x512_1_0_0_1_n_n none X (Wx : FVec Ideal S256x512 .bf16) (constant S1024x512 .f32 0x00000000#32) (ix2 p q))
      + broadcastTo S1024x512 (B : FVec Ideal S1x512 .f32) broadcasts_S1x512_S1024x512 (ix2 p q) = _
  rw [mm_state, mm_input,
    broadcastTo_apply B broadcasts_S1x512_S1024x512 (ix2 p q) (ix2 (0 : Fin 1) q) (fun a => match a with
      | ⟨0, _⟩ => by show (0 : Nat) = if (1 : Nat) = 1 then 0 else p.val; rw [if_pos rfl]
      | ⟨1, _⟩ => by show q.val = if (512 : Nat) = 1 then 0 else q.val; rw [if_neg (by decide)]),
    hB]
  simp only [hA, hX, hWh, hWx]

/-! ## The stored block -/

/-- The forget gate on a block: `lin · ½ + ½`. -/
def fgV (v0 : Vec Ideal S1024x256 .f32) (v2 : Vec Ideal S1024x512 .f32) (v4 : Vec Ideal S512x512 .bf16)
    (v7 : Vec Ideal S256x512 .bf16) (v11 : Vec Ideal S1x512 .f32) : FVec Ideal S1024x512 .f32 :=
  addf (mulf (linV (truncf .bf16 v2 bitsLt_bf16_f32) (truncf .bf16 v0 bitsLt_bf16_f32) v4 v7 v11)
      (broadcast S1024x512 (Scalar.ofBits .f32 0x3F000000#32)))
    (broadcast S1024x512 (Scalar.ofBits .f32 0x3F000000#32))

/-- The body's stored value is the gated-cell term over the block operations. -/
theorem pay_eq (v0 : Vec Ideal S1024x256 .f32) (v2 : Vec Ideal S1024x512 .f32) (v4 : Vec Ideal S512x512 .bf16)
    (v7 : Vec Ideal S256x512 .bf16) (v11 : Vec Ideal S1x512 .f32) (v21 : Vec Ideal S512x512 .bf16)
    (v24 : Vec Ideal S256x512 .bf16) (v28 : Vec Ideal S1x512 .f32) :
    k0_pay1 v0 v2 v4 v7 v11 v21 v24 v28
      = addf (mulf (linV (truncf .bf16 (mulf (fgV v0 v2 v4 v7 v11) v2) bitsLt_bf16_f32) (truncf .bf16 v0 bitsLt_bf16_f32) v21 v24 v28)
            (subf (broadcast S1024x512 (Scalar.ofBits .f32 0x3F800000#32)) (fgV v0 v2 v4 v7 v11)))
          (mulf (fgV v0 v2 v4 v7 v11) v2) := rfl

/-- The forget gate at row `p`, column `k`. -/
theorem fgV_apply (v0 : Vec Ideal S1024x256 .f32) (v2 : Vec Ideal S1024x512 .f32) (v4 : Vec Ideal S512x512 .bf16)
    (v7 : Vec Ideal S256x512 .bf16) (v11 : Vec Ideal S1x512 .f32) (p : Fin 1024) (k : Fin 512)
    (a : Fin 512 → EReal) (x : Fin 256 → EReal) (wf : Fin 512 → Fin 768 → EReal) (bf : Fin 512 → EReal)
    (h2 : ∀ j, v2 (ix2 p j) = a j) (h0 : ∀ j, v0 (ix2 p j) = x j)
    (h4 : ∀ j h, v4 (ix2 j h) = wf h (Mgu.lo j)) (h7 : ∀ j h, v7 (ix2 j h) = wf h (Mgu.hi j))
    (h11 : ∀ h, v11 (ix2 (0 : Fin 1) h) = bf h) :
    fgV v0 v2 v4 v7 v11 (ix2 p k) = Mgu.fgS a x wf bf k := by
  unfold fgV Mgu.fgS
  show linV (truncf .bf16 v2 bitsLt_bf16_f32) (truncf .bf16 v0 bitsLt_bf16_f32) v4 v7 v11 (ix2 p k) * Mgu.half + Mgu.half = _
  rw [linV_apply (truncf .bf16 v2 bitsLt_bf16_f32) (truncf .bf16 v0 bitsLt_bf16_f32) v4 v7 v11 p k a x (wf k) (bf k)
    h2 h0 (fun j => h4 j k) (fun j => h7 j k) (h11 k)]

/-- ROW `p`, COLUMN `q` OF THE STORED BLOCK is the split spelling of the cell, of row `p`'s state and input entries. -/
theorem pay_apply (v0 : Vec Ideal S1024x256 .f32) (v2 : Vec Ideal S1024x512 .f32) (v4 : Vec Ideal S512x512 .bf16)
    (v7 : Vec Ideal S256x512 .bf16) (v11 : Vec Ideal S1x512 .f32) (v21 : Vec Ideal S512x512 .bf16)
    (v24 : Vec Ideal S256x512 .bf16) (v28 : Vec Ideal S1x512 .f32) (p : Fin 1024) (q : Fin 512)
    (a : Fin 512 → EReal) (x : Fin 256 → EReal) (wf : Fin 512 → Fin 768 → EReal) (bf : Fin 512 → EReal)
    (wn : Fin 512 → Fin 768 → EReal) (bn : Fin 512 → EReal)
    (h2 : ∀ j, v2 (ix2 p j) = a j) (h0 : ∀ j, v0 (ix2 p j) = x j)
    (h4 : ∀ j h, v4 (ix2 j h) = wf h (Mgu.lo j)) (h7 : ∀ j h, v7 (ix2 j h) = wf h (Mgu.hi j))
    (h11 : ∀ h, v11 (ix2 (0 : Fin 1) h) = bf h)
    (h21 : ∀ j h, v21 (ix2 j h) = wn h (Mgu.lo j)) (h24 : ∀ j h, v24 (ix2 j h) = wn h (Mgu.hi j))
    (h28 : ∀ h, v28 (ix2 (0 : Fin 1) h) = bn h) :
    k0_pay1 v0 v2 v4 v7 v11 v21 v24 v28 (ix2 p q) = Mgu.outS a x wf bf wn bn q := by
  rw [pay_eq]
  unfold Mgu.outS
  show linV (truncf .bf16 (mulf (fgV v0 v2 v4 v7 v11) v2) bitsLt_bf16_f32) (truncf .bf16 v0 bitsLt_bf16_f32) v21 v24 v28 (ix2 p q)
        * (Mgu.one - fgV v0 v2 v4 v7 v11 (ix2 p q))
      + fgV v0 v2 v4 v7 v11 (ix2 p q) * v2 (ix2 p q) = _
  rw [linV_apply (truncf .bf16 (mulf (fgV v0 v2 v4 v7 v11) v2) bitsLt_bf16_f32) (truncf .bf16 v0 bitsLt_bf16_f32) v21 v24 v28 p q
      (fun k => Mgu.fgS a x wf bf k * a k) x (wn q) (bn q)
      (fun k => by
        show fgV v0 v2 v4 v7 v11 (ix2 p k) * v2 (ix2 p k) = _
        rw [fgV_apply v0 v2 v4 v7 v11 p k a x wf bf h2 h0 h4 h7 h11, h2])
      h0 (fun j => h21 j q) (fun j => h24 j q) (h28 q),
    fgV_apply v0 v2 v4 v7 v11 p q a x wf bf h2 h0 h4 h7 h11, h2]

end Cert.KernelIdeal.KVal

end
-- ==== Proof.KBlocks.lean ====
/-
  What the weight and bias arrays hold when the region is entered, read at an index.

  Before the region the host transposes each gate's weight matrix `W : [512, 768]` to `[768, 512]`, changes its
  format (the identity on extended reals), and cuts the transposed matrix along its rows into the state part (rows
  `0 … 511`) and the input part (rows `512 … 767`); each bias `b : [512]` is viewed as a `[1, 512]` array. Hence the
  state part at `(j, h)` is `W (h, j)`, the input part at `(j, h)` is `W (h, 512 + j)`, and the viewed bias at
  `(0, h)` is `b h`: row `j` of a part is column `Mgu.lo j`, respectively `Mgu.hi j`, of the weight.

  Each statement is proved in two steps: the whole array is the composition of the host's layout operations applied to
  the argument as launched; and that composition is read at an index one operation at a time, outermost first.
-/
import proofs.«175391_j25469156065829_2_alg».proof.Proof.Gen.KernelIdeal.Frame
import proofs.«175391_j25469156065829_2_alg».proof.Proof.Spec
import Idealize.ShloMosaic.Lib.StableHlo.Run
import Idealize.ShloMosaic.Lib.ValueIdx
import Idealize.ShloMosaic.Lib.Pipeline.Value

noncomputable section

namespace Cert.KernelIdeal.KVal

open Cert.KernelIdeal Cert.KernelIdeal.Gen Idealize.ShloMosaic Idealize.ShloMosaic.ValueIdx Idealize.ShloMosaic.TcCoe

variable (m : (ℓ : Loc nD τ sig) → Buf (Elt Ideal) ℓ) (c : Dev nD)

/-! ## The forget gate's weight -/

/-- The state part of the forget gate's weight, as a whole array: the rows from `0` on of the transposed weight. -/
theorem V_wfh_eq :
    V m c main_call0_v4
      = extractStridedSlice S512x512 ![0, 0]
          (truncf (F := Ideal) .bf16
            (transpose S768x512 [1, 0] (m ((c : Thread nD τ).loc main_arg2)) transposes_S512x768_S768x512_1_0)
            bitsLt_bf16_f32) slices_S768x512_S512x512_0_0 := by
  dsimp only [Gen.V, Gen.hostOps0]
  after_results
  rfl

/-- The state part of the forget gate's weight at `(j, h)` is the weight at `(h, j)`. -/
theorem V_wfh (j : Fin 512) (h : Fin 512) :
    V m c main_call0_v4 (ix2 j h) = m ((c : Thread nD τ).loc main_arg2) (ix2 h (Mgu.lo j)) := by
  refine (congrFun (V_wfh_eq m c) (ix2 j h)).trans ?_
  -- the cut: row `j` of the part is row `0 + j` of the transposed weight
  refine (extractStridedSlice_apply _ _ _ (ix2 j h) (ix2 (Mgu.lo j) h) (fun a => by
    match a with
    | ⟨0, _⟩ => exact (Nat.zero_add _).symm
    | ⟨1, _⟩ => exact (Nat.zero_add _).symm)).trans ?_
  -- the change of format is the identity
  refine (ValueIdx.truncf_apply (ψ := .bf16) _ bitsLt_bf16_f32 _).trans ?_
  -- the transpose exchanges the two coordinates
  exact transpose_apply _ _ _ (ix2 (Mgu.lo j) h) (ix2 h (Mgu.lo j)) fun b =>
    match b with
    | ⟨0, _⟩ => rfl
    | ⟨1, _⟩ => rfl

/-- The input part of the forget gate's weight, as a whole array: the rows from `512` on of the transposed weight. -/
theorem V_wfx_eq :
    V m c main_call0_v5
      = extractStridedSlice S256x512 ![512, 0]
          (truncf (F := Ideal) .bf16
            (transpose S768x512 [1, 0] (m ((c : Thread nD τ).loc main_arg2)) transposes_S512x768_S768x512_1_0)
            bitsLt_bf16_f32) slices_S768x512_S256x512_512_0 := by
  dsimp only [Gen.V, Gen.hostOps0]
  after_results
  rfl

/-- The input part of the forget gate's weight at `(j, h)` is the weight at `(h, 512 + j)`. -/
theorem V_wfx (j : Fin 256) (h : Fin 512) :
    V m c main_call0_v5 (ix2 j h) = m ((c : Thread nD τ).loc main_arg2) (ix2 h (Mgu.hi j)) := by
  refine (congrFun (V_wfx_eq m c) (ix2 j h)).trans ?_
  -- the cut: row `j` of the part is row `512 + j` of the transposed weight
  refine (extractStridedSlice_apply _ _ _ (ix2 j h) (ix2 (Mgu.hi j) h) (fun a => by
    match a with
    | ⟨0, _⟩ => rfl
    | ⟨1, _⟩ => exact (Nat.zero_add _).symm)).trans ?_
  -- the change of format is the identity
  refine (ValueIdx.truncf_apply (ψ := .bf16) _ bitsLt_bf16_f32 _).trans ?_
  -- the transpose exchanges the two coordinates
  exact transpose_apply _ _ _ (ix2 (Mgu.hi j) h) (ix2 h (Mgu.hi j)) fun b =>
    match b with
    | ⟨0, _⟩ => rfl
    | ⟨1, _⟩ => rfl

/-! ## The new gate's weight -/

/-- The state part of the new gate's weight, as a whole array: the rows from `0` on of the transposed weight. -/
theorem V_wnh_eq :
    V m c main_call0_v6
      = extractStridedSlice S512x512 ![0, 0]
          (truncf (F := Ideal) .bf16
            (transpose S768x512 [1, 0] (m ((c : Thread nD τ).loc main_arg4)) transposes_S512x768_S768x512_1_0)
            bitsLt_bf16_f32) slices_S768x512_S512x512_0_0 := by
  dsimp only [Gen.V, Gen.hostOps0]
  after_results
  rfl

/-- The state part of the new gate's weight at `(j, h)` is the weight at `(h, j)`. -/
theorem V_wnh (j : Fin 512) (h : Fin 512) :
    V m c main_call0_v6 (ix2 j h) = m ((c : Thread nD τ).loc main_arg4) (ix2 h (Mgu.lo j)) := by
  refine (congrFun (V_wnh_eq m c) (ix2 j h)).trans ?_
  -- the cut: row `j` of the part is row `0 + j` of the transposed weight
  refine (extractStridedSlice_apply _ _ _ (ix2 j h) (ix2 (Mgu.lo j) h) (fun a => by
    match a with
    | ⟨0, _⟩ => exact (Nat.zero_add _).symm
    | ⟨1, _⟩ => exact (Nat.zero_add _).symm)).trans ?_
  -- the change of format is the identity
  refine (ValueIdx.truncf_apply (ψ := .bf16) _ bitsLt_bf16_f32 _).trans ?_
  -- the transpose exchanges the two coordinates
  exact transpose_apply _ _ _ (ix2 (Mgu.lo j) h) (ix2 h (Mgu.lo j)) fun b =>
    match b with
    | ⟨0, _⟩ => rfl
    | ⟨1, _⟩ => rfl

/-- The input part of the new gate's weight, as a whole array: the rows from `512` on of the transposed weight. -/
theorem V_wnx_eq :
    V m c main_call0_v7
      = extractStridedSlice S256x512 ![512, 0]
          (truncf (F := Ideal) .bf16
            (transpose S768x512 [1, 0] (m ((c : Thread nD τ).loc main_arg4)) transposes_S512x768_S768x512_1_0)
            bitsLt_bf16_f32) slices_S768x512_S256x512_512_0 := by
  dsimp only [Gen.V, Gen.hostOps0]
  after_results
  rfl

/-- The input part of the new gate's weight at `(j, h)` is the weight at `(h, 512 + j)`. -/
theorem V_wnx (j : Fin 256) (h : Fin 512) :
    V m c main_call0_v7 (ix2 j h) = m ((c : Thread nD τ).loc main_arg4) (ix2 h (Mgu.hi j)) := by
  refine (congrFun (V_wnx_eq m c) (ix2 j h)).trans ?_
  -- the cut: row `j` of the part is row `512 + j` of the transposed weight
  refine (extractStridedSlice_apply _ _ _ (ix2 j h) (ix2 (Mgu.hi j) h) (fun a => by
    match a with
    | ⟨0, _⟩ => rfl
    | ⟨1, _⟩ => exact (Nat.zero_add _).symm)).trans ?_
  -- the change of format is the identity
  refine (ValueIdx.truncf_apply (ψ := .bf16) _ bitsLt_bf16_f32 _).trans ?_
  -- the transpose exchanges the two coordinates
  exact transpose_apply _ _ _ (ix2 (Mgu.hi j) h) (ix2 h (Mgu.hi j)) fun b =>
    match b with
    | ⟨0, _⟩ => rfl
    | ⟨1, _⟩ => rfl

/-! ## The two biases -/

/-- The forget gate's bias viewed as a `[1, 512]` array, as a whole array. -/
theorem V_bf_eq :
    V m c main_call0_v8 = shapeCast S1x512 (m ((c : Thread nD τ).loc main_arg3)) shapeCasts_S512_S1x512 := by
  dsimp only [Gen.V, Gen.hostOps0]
  after_results
  rfl

/-- The viewed forget gate's bias at `(0, h)` is the bias at `h`: both indices have row-major position `h`. -/
theorem V_bf (h : Fin 512) :
    V m c main_call0_v8 (ix2 (0 : Fin 1) h) = m ((c : Thread nD τ).loc main_arg3) (ix1 h) := by
  refine (congrFun (V_bf_eq m c) (ix2 (0 : Fin 1) h)).trans ?_
  refine shapeCast_apply _ _ (ix2 (0 : Fin 1) h) (ix1 h) ?_
  rw [Shape.rowMajor_val_two, Shape.rowMajor_val_one]
  show h.val = 0 * 512 + h.val
  omega

/-- The new gate's bias viewed as a `[1, 512]` array, as a whole array. -/
theorem V_bn_eq :
    V m c main_call0_v9 = shapeCast S1x512 (m ((c : Thread nD τ).loc main_arg5)) shapeCasts_S512_S1x512 := by
  dsimp only [Gen.V, Gen.hostOps0]
  after_results
  rfl

/-- The viewed new gate's bias at `(0, h)` is the bias at `h`: both indices have row-major position `h`. -/
theorem V_bn (h : Fin 512) :
    V m c main_call0_v9 (ix2 (0 : Fin 1) h) = m ((c : Thread nD τ).loc main_arg5) (ix1 h) := by
  refine (congrFun (V_bn_eq m c) (ix2 (0 : Fin 1) h)).trans ?_
  refine shapeCast_apply _ _ (ix2 (0 : Fin 1) h) (ix1 h) ?_
  rw [Shape.rowMajor_val_two, Shape.rowMajor_val_one]
  show h.val = 0 * 512 + h.val
  omega

end Cert.KernelIdeal.KVal

end
-- ==== Proof.KCover.lean ====
/-
  Where the output window's blocks lie, and that they cover the whole output array.

  The grid has 64 points. At point `t` the two batched operands (rows of the input, rows of the state) and the output
  are read and written in blocks of 1024 rows whose block index is `(t, 0)`; the six small operands are taken whole,
  at block index `(0, 0)`, at every point. The block of the output at `t` therefore holds exactly the indices whose
  row lies in `[1024 t, 1024 t + 1024)`, every column; every block index `0 ≤ q < 64` is some point's; and since
  `64 · 1024 = 65536` every index of the output array lies in the block of the point whose block index is its row
  divided by 1024, which is written back.
-/
import proofs.«175391_j25469156065829_2_alg».proof.Proof.Gen.KernelIdeal.Value

noncomputable section

namespace Cert.KernelIdeal.KVal

open Cert.KernelIdeal Cert.KernelIdeal.Gen Idealize.ShloMosaic Idealize.ShloMosaic.TcCoe

/-- The printed index maps, decided over the grid: the two batched input windows move with the output window along
    the rows and stay at column block 0, as does the output; the output's row block index stays below 64. -/
theorem idx_facts : ∀ t : Fin cfg0.N, win0_0.index t (0 : Fin 2) = win0_8.index t (0 : Fin 2)
    ∧ win0_0.index t (1 : Fin 2) = 0
    ∧ win0_1.index t (0 : Fin 2) = win0_8.index t (0 : Fin 2)
    ∧ win0_1.index t (1 : Fin 2) = 0
    ∧ win0_8.index t (1 : Fin 2) = 0
    ∧ win0_8.index t (0 : Fin 2) < 64 :=
  (by decide +kernel : ∀ t : Fin grid0.N, _)

/-- The six small operands are read at block index `(0, 0)` at every point. -/
theorem idx_zero : ∀ t : Fin cfg0.N, (∀ a : Fin 2, win0_2.index t a = 0) ∧ (∀ a : Fin 2, win0_3.index t a = 0)
    ∧ (∀ a : Fin 2, win0_4.index t a = 0) ∧ (∀ a : Fin 2, win0_5.index t a = 0)
    ∧ (∀ a : Fin 2, win0_6.index t a = 0) ∧ (∀ a : Fin 2, win0_7.index t a = 0) :=
  (by decide +kernel : ∀ t : Fin grid0.N, _)

/-- Every row block index below 64 is some point's. -/
theorem idx_onto : ∀ q0 : Fin 64, ∃ t : Fin cfg0.N, win0_8.index t = ![q0.val, 0] :=
  (by decide +kernel : ∀ q0 : Fin 64, ∃ t : Fin grid0.N, win0_8.index t = ![q0.val, 0])

/-- An index of the output array is in point `t`'s block iff each coordinate is in the block's range on its axis. -/
theorem mem_blk8 (t : Fin cfg0.N) (i : S65536x512.Idx) :
    i ∈ ((cfg0.win 8).blk t).view.set ↔ ∀ a : Fin 2, win0_8.index t a * S1024x512.size a ≤ (i a).val ∧ (i a).val < win0_8.index t a * S1024x512.size a + S1024x512.size a := by
  show i ∈ ((View.whole main_v0).slice (win0_8.rect t)).set ↔ _
  rw [View.set_slice_whole, Rect.mem_set_unit]
  exact Iff.rfl

/-- Every index of the output array lies in the block of a point that writes back: the point whose row block index
    is the index's row divided by 1024. -/
theorem cover8 (i : S65536x512.Idx) :
    ∃ t : Fin cfg0.N, (cfg0.win 8).flush t = true ∧ i ∈ ((cfg0.win 8).blk t).view.set := by
  have hi0 : (i 0).val < 65536 := (i 0).isLt
  have hi1 : (i 1).val < 512 := (i 1).isLt
  obtain ⟨t, ht⟩ := idx_onto ⟨(i 0).val / 1024, by omega⟩
  have q0 : win0_8.index t (0 : Fin 2) = (i 0).val / 1024 := congrFun ht 0
  have q1 : win0_8.index t (1 : Fin 2) = 0 := congrFun ht 1
  refine ⟨t, flush0_8 t, ?_⟩
  rw [mem_blk8]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 512 ≤ (i 1).val ∧ (i 1).val < win0_8.index t (1 : Fin 2) * 512 + 512; omega

end Cert.KernelIdeal.KVal

end
-- ==== Proof.KFinal.lean ====
/-
  From what each grid point writes back to the whole result array.

  Grid point `t` (of 64) sees rows `1024·t … 1024·t + 1023` of the input `x` and of the state `hx`, and the six small
  operands whole: each gate's weight matrix transposed and cut into its 512 state rows and its 256 input rows, and
  the two bias rows. Row `p`, column `q` of the block it writes back is the split spelling of the cell at batch row
  `1024·t + p` and hidden unit `q`, so the block is block `t` of ONE function of the argument arrays. The 64 blocks tile
  the result, hence the result array is that function.
-/
import proofs.«175391_j25469156065829_2_alg».proof.Proof.Gen.KernelIdeal.Value
import proofs.«175391_j25469156065829_2_alg».proof.Proof.Spec
import proofs.«175391_j25469156065829_2_alg».proof.Proof.KPay
import proofs.«175391_j25469156065829_2_alg».proof.Proof.KBlocks
import proofs.«175391_j25469156065829_2_alg».proof.Proof.KCover
import Idealize.ShloMosaic.Lib.ValueIdx
import Idealize.ShloMosaic.Lib.Pipeline.Value

set_option maxRecDepth 16384

noncomputable section

namespace Cert.KernelIdeal.KVal

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zero_offsets : (![0, 0] : Fin 2 → Nat) = fun _ => 0 := funext fun a => by fin_cases a <;> rfl

/-- The result array as one function of the six argument arrays: the split spelling of the cell. -/
abbrev result (c : Dev nD) : S65536x512.Idx → EReal :=
  Mgu.GS (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))

/-- WHAT POINT `t` WRITES BACK is block `t` of `result`. -/
theorem flushed_eq (c : Dev nD) (t : Fin cfg0.N) :
    (dats m 0 c).flushed 8 t = ((cfg0.win 8).blk t).view.read (Elt Ideal) (result m c) := by
  rw [Value.flushed8]
  unfold out0_8
  rw [View.canon_unit_zero zero_offsets]
  simp only [View.ld_unit_zero (S := S1024x256) zero_offsets, View.ld_unit_zero (S := S1024x512) zero_offsets,
    View.ld_unit_zero (S := S512x512) zero_offsets, View.ld_unit_zero (S := S256x512) zero_offsets,
    View.ld_unit_zero (S := S1x512) zero_offsets]
  obtain ⟨e00, e01, e10, e11, e81, e8lt⟩ := idx_facts t
  obtain ⟨z2, z3, z4, z5, z6, z7⟩ := idx_zero t
  funext y
  obtain ⟨p, q, rfl⟩ : ∃ (p : Fin 1024) (q : Fin 512), y = ix2 p q := ⟨y 0, y 1, eq_ix2 y⟩
  show k0_pay1 (iblk m c 0 t) (iblk m c 1 t) (iblk m c 2 t) (iblk m c 3 t) (iblk m c 4 t) (iblk m c 5 t) (iblk m c 6 t) (iblk m c 7 t) (ix2 p q)
    = Mgu.outS (Mgu.row (m ((c : Thread nD τ).loc main_arg1)) ((((cfg0.win 8).blk t).view.emb (ix2 p q)) 0)) (Mgu.row (m ((c : Thread nD τ).loc main_arg0)) ((((cfg0.win 8).blk t).view.emb (ix2 p q)) 0))
        (Mgu.mat (m ((c : Thread nD τ).loc main_arg2))) (Mgu.vec (m ((c : Thread nD τ).loc main_arg3))) (Mgu.mat (m ((c : Thread nD τ).loc main_arg4))) (Mgu.vec (m ((c : Thread nD τ).loc main_arg5))) ((((cfg0.win 8).blk t).view.emb (ix2 p q)) 1)
  have hQ : (((cfg0.win 8).blk t).view.emb (ix2 p q)) 1 = q := Fin.ext (by
    show win0_8.index t (1 : Fin 2) * 512 + 1 * q.val = q.val; omega)
  rw [hQ]
  refine pay_apply (iblk m c 0 t) (iblk m c 1 t) (iblk m c 2 t) (iblk m c 3 t) (iblk m c 4 t) (iblk m c 5 t) (iblk m c 6 t) (iblk m c 7 t) p q
    (Mgu.row (m ((c : Thread nD τ).loc main_arg1)) ((((cfg0.win 8).blk t).view.emb (ix2 p q)) 0)) (Mgu.row (m ((c : Thread nD τ).loc main_arg0)) ((((cfg0.win 8).blk t).view.emb (ix2 p q)) 0))
    (Mgu.mat (m ((c : Thread nD τ).loc main_arg2))) (Mgu.vec (m ((c : Thread nD τ).loc main_arg3))) (Mgu.mat (m ((c : Thread nD τ).loc main_arg4))) (Mgu.vec (m ((c : Thread nD τ).loc main_arg5))) ?_ ?_ ?_ ?_ ?_ ?_ ?_ ?_
  · intro j
    show V m c main_arg1 (((cfg0.win 1).blk t).view.emb (ix2 p j)) = (m ((c : Thread nD τ).loc main_arg1)) (ix2 ((((cfg0.win 8).blk t).view.emb (ix2 p q)) 0) j)
    rw [V_main_arg1]
    refine congrArg _ (funext fun a => Fin.ext ?_)
    match a with
    | ⟨0, _⟩ => show win0_1.index t (0 : Fin 2) * 1024 + 1 * p.val = win0_8.index t (0 : Fin 2) * 1024 + 1 * p.val; omega
    | ⟨1, _⟩ => show win0_1.index t (1 : Fin 2) * 512 + 1 * j.val = j.val; omega
  · intro j
    show V m c main_arg0 (((cfg0.win 0).blk t).view.emb (ix2 p j)) = (m ((c : Thread nD τ).loc main_arg0)) (ix2 ((((cfg0.win 8).blk t).view.emb (ix2 p q)) 0) j)
    rw [V_main_arg0]
    refine congrArg _ (funext fun a => Fin.ext ?_)
    match a with
    | ⟨0, _⟩ => show win0_0.index t (0 : Fin 2) * 1024 + 1 * p.val = win0_8.index t (0 : Fin 2) * 1024 + 1 * p.val; omega
    | ⟨1, _⟩ => show win0_0.index t (1 : Fin 2) * 256 + 1 * j.val = j.val; omega
  · intro j h
    show V m c main_call0_v4 (((cfg0.win 2).blk t).view.emb (ix2 j h)) = _
    have he : ((cfg0.win 2).blk t).view.emb (ix2 j h) = ix2 j h := funext fun a => Fin.ext (by
      match a with
      | ⟨0, _⟩ => show win0_2.index t (0 : Fin 2) * 512 + 1 * j.val = j.val; rw [z2 0]; omega
      | ⟨1, _⟩ => show win0_2.index t (1 : Fin 2) * 512 + 1 * h.val = h.val; rw [z2 1]; omega)
    rw [he]
    exact V_wfh m c j h
  · intro j h
    show V m c main_call0_v5 (((cfg0.win 3).blk t).view.emb (ix2 j h)) = _
    have he : ((cfg0.win 3).blk t).view.emb (ix2 j h) = ix2 j h := funext fun a => Fin.ext (by
      match a with
      | ⟨0, _⟩ => show win0_3.index t (0 : Fin 2) * 256 + 1 * j.val = j.val; rw [z3 0]; omega
      | ⟨1, _⟩ => show win0_3.index t (1 : Fin 2) * 512 + 1 * h.val = h.val; rw [z3 1]; omega)
    rw [he]
    exact V_wfx m c j h
  · intro h
    show V m c main_call0_v8 (((cfg0.win 4).blk t).view.emb (ix2 (0 : Fin 1) h)) = _
    have he : ((cfg0.win 4).blk t).view.emb (ix2 (0 : Fin 1) h) = ix2 (0 : Fin 1) h := funext fun a => Fin.ext (by
      match a with
      | ⟨0, _⟩ => show win0_4.index t (0 : Fin 2) * 1 + 1 * 0 = 0; rw [z4 0]
      | ⟨1, _⟩ => show win0_4.index t (1 : Fin 2) * 512 + 1 * h.val = h.val; rw [z4 1]; omega)
    rw [he]
    exact V_bf m c h
  · intro j h
    show V m c main_call0_v6 (((cfg0.win 5).blk t).view.emb (ix2 j h)) = _
    have he : ((cfg0.win 5).blk t).view.emb (ix2 j h) = ix2 j h := funext fun a => Fin.ext (by
      match a with
      | ⟨0, _⟩ => show win0_5.index t (0 : Fin 2) * 512 + 1 * j.val = j.val; rw [z5 0]; omega
      | ⟨1, _⟩ => show win0_5.index t (1 : Fin 2) * 512 + 1 * h.val = h.val; rw [z5 1]; omega)
    rw [he]
    exact V_wnh m c j h
  · intro j h
    show V m c main_call0_v7 (((cfg0.win 6).blk t).view.emb (ix2 j h)) = _
    have he : ((cfg0.win 6).blk t).view.emb (ix2 j h) = ix2 j h := funext fun a => Fin.ext (by
      match a with
      | ⟨0, _⟩ => show win0_6.index t (0 : Fin 2) * 256 + 1 * j.val = j.val; rw [z6 0]; omega
      | ⟨1, _⟩ => show win0_6.index t (1 : Fin 2) * 512 + 1 * h.val = h.val; rw [z6 1]; omega)
    rw [he]
    exact V_wnx m c j h
  · intro h
    show V m c main_call0_v9 (((cfg0.win 7).blk t).view.emb (ix2 (0 : Fin 1) h)) = _
    have he : ((cfg0.win 7).blk t).view.emb (ix2 (0 : Fin 1) h) = ix2 (0 : Fin 1) h := funext fun a => Fin.ext (by
      match a with
      | ⟨0, _⟩ => show win0_7.index t (0 : Fin 2) * 1 + 1 * 0 = 0; rw [z7 0]
      | ⟨1, _⟩ => show win0_7.index t (1 : Fin 2) * 512 + 1 * h.val = h.val; rw [z7 1]; omega)
    rw [he]
    exact V_bn m c h

/-- THE RESULT ARRAY after the run is `result`: the 64 blocks written back tile it. -/
theorem final (c : Dev nD) : (dats m 0 c).arrAt 8 cfg0.N = result m c :=
  (dats m 0 c).arrAt_eq_of_cover 8 (result m c) (fun t _ => flushed_eq m c t) cover8

/-- The kernel's run: every weakly fair execution ends with the result array at `result` and the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final m c), (h c).2⟩) (Value.run_blocks m ρ)

end Cert.KernelIdeal.KVal

end
-- ==== Proof.lean ====
/-
  A minimal gated recurrent cell, computed by a tiled kernel and by a plain array program, are one function of
  finite inputs.

  For a batch of 65536 rows, with input `x` (256 columns), state `hx` (512 columns), two weight matrices
  `w_f`, `w_n` (512 × 768, multiplying the concatenation `[hx ; x]`) and two biases, both programs compute

      fg = (w_f · [hx ; x] + b_f + 1) / 2,      ng = w_n · [fg · hx ; x] + b_n,      hy = ng − fg · ng + fg · hx.

  The kernel walks the batch in 64 blocks of 1024 rows. It contracts the 512 state columns and the 256 input columns
  separately (the weight matrices are transposed and cut in two beforehand), halves by `L · ½ + ½`, and writes
  `ng · (1 − fg) + fg · hx`. The array program contracts all 768 columns of the concatenation at once, halves by
  `(L + 1) · ½`, and writes `(ng − fg · ng) + fg · hx`. Over the extended reals the regrouping of the contraction
  is free, but the two uses of distributivity fail at the infinities; the precondition (every input entry is finite)
  makes every intermediate value a real number, where they hold.

  The pieces: `Mgu.GS` / `Mgu.GC` are the two spellings as functions of the argument arrays; the kernel's result array
  is `GS` (the stored block read at an index, the blocks tiling the array); the array program's result is `GC` (its
  operations read at an index one by one); `GS = GC` on real entries; and finite inputs are real.
-/
import proofs.«175391_j25469156065829_2_alg».proof.Defs
import proofs.«175391_j25469156065829_2_alg».proof.Proof.Gen.Kernel
import proofs.«175391_j25469156065829_2_alg».proof.Proof.Gen.Kernel.Skeleton
import proofs.«175391_j25469156065829_2_alg».proof.Proof.Gen.Kernel.Launch
import proofs.«175391_j25469156065829_2_alg».proof.Proof.Gen.Kernel.Points
import proofs.«175391_j25469156065829_2_alg».proof.Proof.Gen.Kernel.Frame
import proofs.«175391_j25469156065829_2_alg».proof.Proof.Gen.KernelIdeal
import proofs.«175391_j25469156065829_2_alg».proof.Proof.Gen.KernelIdeal.Skeleton
import proofs.«175391_j25469156065829_2_alg».proof.Proof.Gen.KernelIdeal.Launch
import proofs.«175391_j25469156065829_2_alg».proof.Proof.Gen.KernelIdeal.Points
import proofs.«175391_j25469156065829_2_alg».proof.Proof.Gen.KernelIdeal.Frame
import proofs.«175391_j25469156065829_2_alg».proof.Proof.Gen.ReferenceIdeal
import proofs.«175391_j25469156065829_2_alg».proof.Proof.Gen.Pre_finite_inputs
import proofs.«175391_j25469156065829_2_alg».proof.Proof.Gen.KernelIdeal.Value
import proofs.«175391_j25469156065829_2_alg».proof.Proof.Gen.ReferenceIdeal.Run
import proofs.«175391_j25469156065829_2_alg».proof.Proof.Gen.ReferenceIdeal.Read
import proofs.«175391_j25469156065829_2_alg».proof.Proof.Spec
import proofs.«175391_j25469156065829_2_alg».proof.Proof.Algebra
import proofs.«175391_j25469156065829_2_alg».proof.Proof.Finite
import proofs.«175391_j25469156065829_2_alg».proof.Proof.RefSide
import proofs.«175391_j25469156065829_2_alg».proof.Proof.KFinal
import Idealize.ShloMosaic.Adequacy
import Idealize.ShloMosaic.Init

noncomputable section

namespace Cert.Proof

open Idealize.ShloMosaic Idealize.ShloMosaic.TcCoe Idealize.SL.Sem

/-- The word-level kernel terminates without a fault and leaves its arguments as they were. -/
theorem frame_kernel : Cert.frame_Kernel := fun m ρ _ => Cert.Kernel.Gen.frame m ρ

/-- So does the kernel read at the exact values. -/
theorem frame_kernelIdeal : Cert.frame_KernelIdeal := fun m ρ _ => Cert.KernelIdeal.Gen.frame m ρ

/-- The array program is a straight line of host operations: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- At the exact values, from memories agreeing on finite arguments, the kernel ends with the split spelling of
    the cell and the array program with the concatenated spelling; on real entries they are one function. -/
theorem algebraic : Cert.algebraic_KernelIdeal_ReferenceIdeal := by
  intro m ρ m' ρ' hpre hagree
  refine ⟨fun c => Cert.KernelIdeal.KVal.result m c, Cert.KernelIdeal.KVal.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v17_eq, Cert.ReferenceIdeal.RefValue.ref_eq_GC]
  obtain ⟨h0, h1, h2, h3, h4, h5⟩ := hagree c
  rw [h0, h1, h2, h3, h4, h5]
  obtain ⟨r0, r1, r2, r3, r4, r5⟩ := Mgu.Finite.real_of_pre _ _ _ _ _ _ (hpre c)
  exact (Mgu.GS_eq_GC _ _ _ _ _ _ r0 r1 r2 r3 r4 r5).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
